-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S8x256x1024 : Shape := ⟨3, ![8, 256, 1024]⟩
abbrev S8x1024 : Shape := ⟨2, ![8, 1024]⟩
abbrev S8x1024x512 : Shape := ⟨3, ![8, 1024, 512]⟩
abbrev S8x512 : Shape := ⟨2, ![8, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part2 {F : FTy → Type} [FloatOps F] (main_arg8 : FVec F S8x1024x512 .f32) (main_arg9 : FVec F S8x512 .f32) (main_v33 : IVec S_ 1) : IVec S_ 1 :=
  let main_v34 : FVec F S8x1024x512 .f32 := Host.absf main_arg8
  let main_cst_12 : FVec F S_ .f32 := constant S_ .f32 0x7F800000#32
  let main_v35 : FVec F S8x1024x512 .f32 := broadcastInDim S8x1024x512 ![] bcast_S_S8x1024x512 main_cst_12
  let main_v36 : IVec S8x1024x512 1 := cmpf .olt main_v34 main_v35
  let main_c_13 : IVec S_ 1 := constantI S_ 1 1#1
  let main_v37 : IVec S_ 1 := (fun x v => Host.reduce IntOp.andi x v reducesTo_S8x1024x512_S_d0_1_2 h_S_) main_v36 main_c_13
  let main_v38 : IVec S_ 1 := andi main_v33 main_v37
  let main_v39 : FVec F S8x512 .f32 := Host.absf main_arg9
  let main_cst_14 : FVec F S_ .f32 := constant S_ .f32 0x7F800000#32
  let main_v40 : FVec F S8x512 .f32 := broadcastInDim S8x512 ![] bcast_S_S8x512 main_cst_14
  let main_v41 : IVec S8x512 1 := cmpf .olt main_v39 main_v40
  let main_c_15 : IVec S_ 1 := constantI S_ 1 1#1
  let main_v42 : IVec S_ 1 := (fun x v => Host.reduce IntOp.andi x v reducesTo_S8x512_S_d0_1 h_S_) main_v41 main_c_15
  let main_v43 : IVec S_ 1 := andi main_v38 main_v42
  main_v43

def fn_part1 {F : FTy → Type} [FloatOps F] (main_arg5 : FVec F S256 .f32) (main_arg6 : FVec F S8x256x1024 .f32) (main_arg7 : FVec F S8x1024 .f32) (main_arg8 : FVec F S8x1024x512 .f32) (main_arg9 : FVec F S8x512 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x256x1024 .f32 := Host.absf main_arg6
  let main_cst_8 : FVec F S_ .f32 := constant S_ .f32 0x7F800000#32
  let main_v25 : FVec F S8x256x1024 .f32 := broadcastInDim S8x256x1024 ![] bcast_S_S8x256x1024 main_cst_8
  let main_v26 : IVec S8x256x1024 1 := cmpf .olt main_v24 main_v25
  let main_c_9 : IVec S_ 1 := constantI S_ 1 1#1
  let main_v27 : IVec S_ 1 := (fun x v => Host.reduce IntOp.andi x v reducesTo_S8x256x1024_S_d0_1_2 h_S_) main_v26 main_c_9
  let main_v28 : IVec S_ 1 := andi main_v23 main_v27
  let main_v29 : FVec F S8x1024 .f32 := Host.absf main_arg7
  let main_cst_10 : FVec F S_ .f32 := constant S_ .f32 0x7F800000#32
  let main_v30 : FVec F S8x1024 .f32 := broadcastInDim S8x1024 ![] bcast_S_S8x1024 main_cst_10
  let main_v31 : IVec S8x1024 1 := cmpf .olt main_v29 main_v30
  let main_c_11 : IVec S_ 1 := constantI S_ 1 1#1
  let main_v32 : IVec S_ 1 := (fun x v => Host.reduce IntOp.andi x v reducesTo_S8x1024_S_d0_1 h_S_) main_v31 main_c_11
  let main_v33 : IVec S_ 1 := andi main_v28 main_v32
  fn_part2 (F := F) main_arg8 main_arg9 main_v33

def fn {F : FTy → Type} [FloatOps F] (main_arg0 : FVec F S16384x512 .f32) (main_arg1 : IVec S16384 32) (main_arg2 : FVec F S512x1024 .f32) (main_arg3 : FVec F S1024 .f32) (main_arg4 : FVec F S1024x256 .f32) (main_arg5 : FVec F S256 .f32) (main_arg6 : FVec F S8x256x1024 .f32) (main_arg7 : FVec F S8x1024 .f32) (main_arg8 : FVec F S8x1024x512 .f32) (main_arg9 : FVec F S8x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg5 main_arg6 main_arg7 main_arg8 main_arg9 main_v13 main_v16
-- ==== Kernel.lean ====
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S8x256x1024 : Shape := ⟨3, ![8, 256, 1024]⟩
abbrev S8x1024 : Shape := ⟨2, ![8, 1024]⟩
abbrev S8x1024x512 : Shape := ⟨3, ![8, 1024, 512]⟩
abbrev S8x512 : Shape := ⟨2, ![8, 512]⟩
abbrev S16384x1 : Shape := ⟨2, ![16384, 1]⟩
abbrev S1x1024 : Shape := ⟨2, ![1, 1024]⟩
abbrev S1x256 : Shape := ⟨2, ![1, 256]⟩
abbrev S8x1x1024 : Shape := ⟨3, ![8, 1, 1024]⟩
abbrev S8x1x512 : Shape := ⟨3, ![8, 1, 512]⟩
abbrev S1024x512 : Shape := ⟨2, ![1024, 512]⟩
abbrev S1024x1 : Shape := ⟨2, ![1024, 1]⟩
abbrev S1x256x1024 : Shape := ⟨3, ![1, 256, 1024]⟩
abbrev S1x1x1024 : Shape := ⟨3, ![1, 1, 1024]⟩
abbrev S1x1024x512 : Shape := ⟨3, ![1, 1024, 512]⟩
abbrev S1x1x512 : Shape := ⟨3, ![1, 1, 512]⟩
abbrev S1024x1024 : Shape := ⟨2, ![1024, 1024]⟩
abbrev S256x1024 : Shape := ⟨2, ![256, 1024]⟩
abbrev S1x512 : Shape := ⟨2, ![1, 512]⟩

abbrev nBuf : Space → Nat
  | .hbm => 21
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S8x256x1024, .f32⟩
  | .hbm, ⟨7, _⟩ => ⟨S8x1024, .f32⟩
  | .hbm, ⟨8, _⟩ => ⟨S8x1024x512, .f32⟩
  | .hbm, ⟨9, _⟩ => ⟨S8x512, .f32⟩
  | .hbm, ⟨10, _⟩ => ⟨S16384x512, .bf16⟩
  | .hbm, ⟨11, _⟩ => ⟨S16384x1, .i32⟩
  | .hbm, ⟨12, _⟩ => ⟨S512x1024, .bf16⟩
  | .hbm, ⟨13, _⟩ => ⟨S1024x256, .bf16⟩
  | .hbm, ⟨14, _⟩ => ⟨S8x256x1024, .bf16⟩
  | .hbm, ⟨15, _⟩ => ⟨S8x1024x512, .bf16⟩
  | .hbm, ⟨16, _⟩ => ⟨S1x1024, .f32⟩
  | .hbm, ⟨17, _⟩ => ⟨S1x256, .f32⟩
  | .hbm, ⟨18, _⟩ => ⟨S8x1x1024, .f32⟩
  | .hbm, ⟨19, _⟩ => ⟨S8x1x512, .f32⟩
  | .hbm, ⟨20, _⟩ => ⟨S16384x512, .f32⟩
  | .local _ .vmem, ⟨0, _⟩ => ⟨S1024x512, .bf16⟩
  | .local _ .vmem, ⟨1, _⟩ => ⟨S1024x512, .bf16⟩
  | .local _ .vmem, ⟨2, _⟩ => ⟨S1024x1, .i32⟩
  | .local _ .vmem, ⟨3, _⟩ => ⟨S1024x1, .i32⟩
  | .local _ .vmem, ⟨4, _⟩ => ⟨S512x1024, .bf16⟩
  | .local _ .vmem, ⟨5, _⟩ => ⟨S1x1024, .f32⟩
  | .local _ .vmem, ⟨6, _⟩ => ⟨S1024x256, .bf16⟩
  | .local _ .vmem, ⟨7, _⟩ => ⟨S1x256, .f32⟩
  | .local _ .vmem, ⟨8, _⟩ => ⟨S1x256x1024, .bf16⟩
  | .local _ .vmem, ⟨9, _⟩ => ⟨S1x256x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1x512, .f32⟩
  | .local _ .vmem, ⟨15, _⟩ => ⟨S1x1x512, .f32⟩
  | .local _ .vmem, ⟨16, _⟩ => ⟨S1024x512, .f32⟩
  | .local _ .vmem, ⟨17, _⟩ => ⟨S1024x512, .f32⟩
  | .local _ .vmem, ⟨18, _⟩ => ⟨S1024x256, .f32⟩
  | .local _ .vmem, ⟨19, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  shapeCasts_S16384_S16384x1 : S16384.ShapeCasts S16384x1
  shapeCasts_S1024_S1x1024 : S1024.ShapeCasts S1x1024
  shapeCasts_S256_S1x256 : S256.ShapeCasts S1x256
  shapeCasts_S8x1024_S8x1x1024 : S8x1024.ShapeCasts S8x1x1024
  shapeCasts_S8x512_S8x1x512 : S8x512.ShapeCasts S8x1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x512 : S1024x1.Broadcasts S1024x512
  dot_S1024x512_S512x1024_S1024x1024_1_0_0_1_n_n_wf : DotDims.WF S1024x512 S512x1024 S1024x1024 [1] [0] [0] [1] [] []
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S8x256x1024.size a
  hwx0_6 : ∀ i : grid0.Coords, EltTy.bits .bf16 = 32 ∨ (Rect.block (s := S8x256x1024) S1x256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S8x1x1024.size a
  hwx0_7 : ∀ i : grid0.Coords, EltTy.bits .f32 = 32 ∨ (Rect.block (s := S8x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S8x1024x512.size a
  hwx0_8 : ∀ i : grid0.Coords, EltTy.bits .bf16 = 32 ∨ (Rect.block (s := S8x1024x512) S1x1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512.size a ≤ S8x1x512.size a
  hwx0_9 : ∀ i : grid0.Coords, EltTy.bits .f32 = 32 ∨ (Rect.block (s := S8x1x512) S1x1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S8x256x1024 : Shape := ⟨3, ![8, 256, 1024]⟩
abbrev S8x1024 : Shape := ⟨2, ![8, 1024]⟩
abbrev S8x1024x512 : Shape := ⟨3, ![8, 1024, 512]⟩
abbrev S8x512 : Shape := ⟨2, ![8, 512]⟩
abbrev S16384x1024 : Shape := ⟨2, ![16384, 1024]⟩
abbrev S1x1024 : Shape := ⟨2, ![1, 1024]⟩
abbrev S_ : Shape := ⟨0, ![]⟩
abbrev S16384x256 : Shape := ⟨2, ![16384, 256]⟩
abbrev S1x256 : Shape := ⟨2, ![1, 256]⟩
abbrev S16384x1 : Shape := ⟨2, ![16384, 1]⟩
abbrev S1x8 : Shape := ⟨2, ![1, 8]⟩
abbrev S16384x8 : Shape := ⟨2, ![16384, 8]⟩
abbrev S1x256x1024 : Shape := ⟨3, ![1, 256, 1024]⟩
abbrev S256x1024 : Shape := ⟨2, ![256, 1024]⟩
abbrev S1x1024x512 : Shape := ⟨3, ![1, 1024, 512]⟩
abbrev S1024x512 : Shape := ⟨2, ![1024, 512]⟩
abbrev S1x512 : Shape := ⟨2, ![1, 512]⟩
abbrev S512 : Shape := ⟨1, ![512]⟩

abbrev nBuf : Space → Nat
  | .hbm => 216
  | .vmem => 0
  | .smem => 0
  | _ => 0

abbrev hbmTy0_0 (i : Nat) : BufTy := match i % 128 with
  | 0 => ⟨S16384x512, .f32⟩
  | 1 => ⟨S16384, .i32⟩
  | 2 => ⟨S512x1024, .f32⟩
  | 3 => ⟨S1024, .f32⟩
  | 4 => ⟨S1024x256, .f32⟩
  | 5 => ⟨S256, .f32⟩
  | 6 => ⟨S8x256x1024, .f32⟩
  | 7 => ⟨S8x1024, .f32⟩
  | 8 => ⟨S8x1024x512, .f32⟩
  | 9 => ⟨S8x512, .f32⟩
  | 10 => ⟨S16384x1024, .f32⟩
  | 11 => ⟨S1x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S16384x256, .f32⟩
  | 18 => ⟨S1x256, .f32⟩
  | 19 => ⟨S16384x256, .f32⟩
  | 20 => ⟨S16384x256, .f32⟩
  | 21 => ⟨S_, .f32⟩
  | 22 => ⟨S16384x256, .f32⟩
  | 23 => ⟨S16384x256, .f32⟩
  | 24 => ⟨S16384x1, .i32⟩
  | 25 => ⟨S1x8, .i32⟩
  | 26 => ⟨S16384x8, .i32⟩
  | 27 => ⟨S16384x8, .i32⟩
  | 28 => ⟨S16384x8, .i1⟩
  | 29 => ⟨S16384x8, .f32⟩
  | 30 => ⟨S_, .f32⟩
  | 31 => ⟨S16384x512, .f32⟩
  | 32 => ⟨S1x256x1024, .f32⟩
  | 33 => ⟨S256x1024, .f32⟩
  | 34 => ⟨S16384x1024, .f32⟩
  | 35 => ⟨S1x1024, .f32⟩
  | 36 => ⟨S1024, .f32⟩
  | 37 => ⟨S1x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S1x1024x512, .f32⟩
  | 44 => ⟨S1024x512, .f32⟩
  | 45 => ⟨S16384x512, .f32⟩
  | 46 => ⟨S1x512, .f32⟩
  | 47 => ⟨S512, .f32⟩
  | 48 => ⟨S1x512, .f32⟩
  | 49 => ⟨S16384x512, .f32⟩
  | 50 => ⟨S16384x512, .f32⟩
  | 51 => ⟨S16384x1, .f32⟩
  | 52 => ⟨S16384x512, .f32⟩
  | 53 => ⟨S16384x512, .f32⟩
  | 54 => ⟨S16384x512, .f32⟩
  | 55 => ⟨S1x256x1024, .f32⟩
  | 56 => ⟨S256x1024, .f32⟩
  | 57 => ⟨S16384x1024, .f32⟩
  | 58 => ⟨S1x1024, .f32⟩
  | 59 => ⟨S1024, .f32⟩
  | 60 => ⟨S1x1024, .f32⟩
  | 61 => ⟨S16384x1024, .f32⟩
  | 62 => ⟨S16384x1024, .f32⟩
  | 63 => ⟨S_, .f32⟩
  | 64 => ⟨S16384x1024, .f32⟩
  | 65 => ⟨S16384x1024, .f32⟩
  | 66 => ⟨S1x1024x512, .f32⟩
  | 67 => ⟨S1024x512, .f32⟩
  | 68 => ⟨S16384x512, .f32⟩
  | 69 => ⟨S1x512, .f32⟩
  | 70 => ⟨S512, .f32⟩
  | 71 => ⟨S1x512, .f32⟩
  | 72 => ⟨S16384x512, .f32⟩
  | 73 => ⟨S16384x512, .f32⟩
  | 74 => ⟨S16384x1, .f32⟩
  | 75 => ⟨S16384x512, .f32⟩
  | 76 => ⟨S16384x512, .f32⟩
  | 77 => ⟨S16384x512, .f32⟩
  | 78 => ⟨S1x256x1024, .f32⟩
  | 79 => ⟨S256x1024, .f32⟩
  | 80 => ⟨S16384x1024, .f32⟩
  | 81 => ⟨S1x1024, .f32⟩
  | 82 => ⟨S1024, .f32⟩
  | 83 => ⟨S1x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S1x1024x512, .f32⟩
  | 90 => ⟨S1024x512, .f32⟩
  | 91 => ⟨S16384x512, .f32⟩
  | 92 => ⟨S1x512, .f32⟩
  | 93 => ⟨S512, .f32⟩
  | 94 => ⟨S1x512, .f32⟩
  | 95 => ⟨S16384x512, .f32⟩
  | 96 => ⟨S16384x512, .f32⟩
  | 97 => ⟨S16384x1, .f32⟩
  | 98 => ⟨S16384x512, .f32⟩
  | 99 => ⟨S16384x512, .f32⟩
  | 100 => ⟨S16384x512, .f32⟩
  | 101 => ⟨S1x256x1024, .f32⟩
  | 102 => ⟨S256x1024, .f32⟩
  | 103 => ⟨S16384x1024, .f32⟩
  | 104 => ⟨S1x1024, .f32⟩
  | 105 => ⟨S1024, .f32⟩
  | 106 => ⟨S1x1024, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S1x1024x512, .f32⟩
  | 113 => ⟨S1024x512, .f32⟩
  | 114 => ⟨S16384x512, .f32⟩
  | 115 => ⟨S1x512, .f32⟩
  | 116 => ⟨S512, .f32⟩
  | 117 => ⟨S1x512, .f32⟩
  | 118 => ⟨S16384x512, .f32⟩
  | 119 => ⟨S16384x512, .f32⟩
  | 120 => ⟨S16384x1, .f32⟩
  | 121 => ⟨S16384x512, .f32⟩
  | 122 => ⟨S16384x512, .f32⟩
  | 123 => ⟨S16384x512, .f32⟩
  | 124 => ⟨S1x256x1024, .f32⟩
  | 125 => ⟨S256x1024, .f32⟩
  | 126 => ⟨S16384x1024, .f32⟩
  | 127 => ⟨S1x1024, .f32⟩
  | _ => ⟨S16384x512, .f32⟩

abbrev hbmTy0_1 (i : Nat) : BufTy := match i % 128 with
  | 0 => ⟨S1024, .f32⟩
  | 1 => ⟨S1x1024, .f32⟩
  | 2 => ⟨S16384x1024, .f32⟩
  | 3 => ⟨S16384x1024, .f32⟩
  | 4 => ⟨S_, .f32⟩
  | 5 => ⟨S16384x1024, .f32⟩
  | 6 => ⟨S16384x1024, .f32⟩
  | 7 => ⟨S1x1024x512, .f32⟩
  | 8 => ⟨S1024x512, .f32⟩
  | 9 => ⟨S16384x512, .f32⟩
  | 10 => ⟨S1x512, .f32⟩
  | 11 => ⟨S512, .f32⟩
  | 12 => ⟨S1x512, .f32⟩
  | 13 => ⟨S16384x512, .f32⟩
  | 14 => ⟨S16384x512, .f32⟩
  | 15 => ⟨S16384x1, .f32⟩
  | 16 => ⟨S16384x512, .f32⟩
  | 17 => ⟨S16384x512, .f32⟩
  | 18 => ⟨S16384x512, .f32⟩
  | 19 => ⟨S1x256x1024, .f32⟩
  | 20 => ⟨S256x1024, .f32⟩
  | 21 => ⟨S16384x1024, .f32⟩
  | 22 => ⟨S1x1024, .f32⟩
  | 23 => ⟨S1024, .f32⟩
  | 24 => ⟨S1x1024, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S1x1024x512, .f32⟩
  | 31 => ⟨S1024x512, .f32⟩
  | 32 => ⟨S16384x512, .f32⟩
  | 33 => ⟨S1x512, .f32⟩
  | 34 => ⟨S512, .f32⟩
  | 35 => ⟨S1x512, .f32⟩
  | 36 => ⟨S16384x512, .f32⟩
  | 37 => ⟨S16384x512, .f32⟩
  | 38 => ⟨S16384x1, .f32⟩
  | 39 => ⟨S16384x512, .f32⟩
  | 40 => ⟨S16384x512, .f32⟩
  | 41 => ⟨S16384x512, .f32⟩
  | 42 => ⟨S1x256x1024, .f32⟩
  | 43 => ⟨S256x1024, .f32⟩
  | 44 => ⟨S16384x1024, .f32⟩
  | 45 => ⟨S1x1024, .f32⟩
  | 46 => ⟨S1024, .f32⟩
  | 47 => ⟨S1x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S1x1024x512, .f32⟩
  | 54 => ⟨S1024x512, .f32⟩
  | 55 => ⟨S16384x512, .f32⟩
  | 56 => ⟨S1x512, .f32⟩
  | 57 => ⟨S512, .f32⟩
  | 58 => ⟨S1x512, .f32⟩
  | 59 => ⟨S16384x512, .f32⟩
  | 60 => ⟨S16384x512, .f32⟩
  | 61 => ⟨S16384x1, .f32⟩
  | 62 => ⟨S16384x512, .f32⟩
  | 63 => ⟨S16384x512, .f32⟩
  | 64 => ⟨S16384x512, .f32⟩
  | 65 => ⟨S1x256x1024, .f32⟩
  | 66 => ⟨S256x1024, .f32⟩
  | 67 => ⟨S16384x1024, .f32⟩
  | 68 => ⟨S1x1024, .f32⟩
  | 69 => ⟨S1024, .f32⟩
  | 70 => ⟨S1x1024, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S1x1024x512, .f32⟩
  | 77 => ⟨S1024x512, .f32⟩
  | 78 => ⟨S16384x512, .f32⟩
  | 79 => ⟨S1x512, .f32⟩
  | 80 => ⟨S512, .f32⟩
  | 81 => ⟨S1x512, .f32⟩
  | 82 => ⟨S16384x512, .f32⟩
  | 83 => ⟨S16384x512, .f32⟩
  | 84 => ⟨S16384x1, .f32⟩
  | 85 => ⟨S16384x512, .f32⟩
  | 86 => ⟨S16384x512, .f32⟩
  | 87 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call3_cst : Ref sig .tc := ⟨.hbm, 40, rfl⟩
abbrev main_call3_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call4_cst : Ref sig .tc := ⟨.hbm, 63, rfl⟩
abbrev main_call4_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call5_cst : Ref sig .tc := ⟨.hbm, 86, rfl⟩
abbrev main_call5_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call6_cst : Ref sig .tc := ⟨.hbm, 109, rfl⟩
abbrev main_call6_v0 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_call7_cst : Ref sig .tc := ⟨.hbm, 132, rfl⟩
abbrev main_call7_v0 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_call8_cst : Ref sig .tc := ⟨.hbm, 155, rfl⟩
abbrev main_call8_v0 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_call9_cst : Ref sig .tc := ⟨.hbm, 178, rfl⟩
abbrev main_call9_v0 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_call10_cst : Ref sig .tc := ⟨.hbm, 201, rfl⟩
abbrev main_call10_v0 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  bcast_S_S16384x512 : S_.BroadcastsInDim S16384x512 (![] : Fin 0 → Fin S16384x512.rank)
  slices_S8x256x1024_S1x256x1024_0_0_0 : S8x256x1024.Slices ![0, 0, 0] S1x256x1024
  shapeCasts_S1x256x1024_S256x1024 : S1x256x1024.ShapeCasts S256x1024
  slices_S8x1024_S1x1024_0_0 : S8x1024.Slices ![0, 0] S1x1024
  shapeCasts_S1x1024_S1024 : S1x1024.ShapeCasts S1024
  slices_S8x1024x512_S1x1024x512_0_0_0 : S8x1024x512.Slices ![0, 0, 0] S1x1024x512
  shapeCasts_S1x1024x512_S1024x512 : S1x1024x512.ShapeCasts S1024x512
  slices_S8x512_S1x512_0_0 : S8x512.Slices ![0, 0] S1x512
  shapeCasts_S1x512_S512 : S1x512.ShapeCasts S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  slices_S16384x8_S16384x1_0_0 : S16384x8.Slices ![0, 0] S16384x1
  bcast_S16384x1_S16384x512_0_1 : S16384x1.BroadcastsInDim S16384x512 (![0, 1] : Fin 2 → Fin S16384x512.rank)
  slices_S8x256x1024_S1x256x1024_1_0_0 : S8x256x1024.Slices ![1, 0, 0] S1x256x1024
  slices_S8x1024_S1x1024_1_0 : S8x1024.Slices ![1, 0] S1x1024
  slices_S8x1024x512_S1x1024x512_1_0_0 : S8x1024x512.Slices ![1, 0, 0] S1x1024x512
  slices_S8x512_S1x512_1_0 : S8x512.Slices ![1, 0] S1x512
  slices_S16384x8_S16384x1_0_1 : S16384x8.Slices ![0, 1] S16384x1
  slices_S8x256x1024_S1x256x1024_2_0_0 : S8x256x1024.Slices ![2, 0, 0] S1x256x1024
  slices_S8x1024_S1x1024_2_0 : S8x1024.Slices ![2, 0] S1x1024
  slices_S8x1024x512_S1x1024x512_2_0_0 : S8x1024x512.Slices ![2, 0, 0] S1x1024x512
  slices_S8x512_S1x512_2_0 : S8x512.Slices ![2, 0] S1x512
  slices_S16384x8_S16384x1_0_2 : S16384x8.Slices ![0, 2] S16384x1
  slices_S8x256x1024_S1x256x1024_3_0_0 : S8x256x1024.Slices ![3, 0, 0] S1x256x1024
  slices_S8x1024_S1x1024_3_0 : S8x1024.Slices ![3, 0] S1x1024
  slices_S8x1024x512_S1x1024x512_3_0_0 : S8x1024x512.Slices ![3, 0, 0] S1x1024x512
  slices_S8x512_S1x512_3_0 : S8x512.Slices ![3, 0] S1x512
  slices_S16384x8_S16384x1_0_3 : S16384x8.Slices ![0, 3] S16384x1
  slices_S8x256x1024_S1x256x1024_4_0_0 : S8x256x1024.Slices ![4, 0, 0] S1x256x1024
  slices_S8x1024_S1x1024_4_0 : S8x1024.Slices ![4, 0] S1x1024
  slices_S8x1024x512_S1x1024x512_4_0_0 : S8x1024x512.Slices ![4, 0, 0] S1x1024x512
  slices_S8x512_S1x512_4_0 : S8x512.Slices ![4, 0] S1x512
  slices_S16384x8_S16384x1_0_4 : S16384x8.Slices ![0, 4] S16384x1
  slices_S8x256x1024_S1x256x1024_5_0_0 : S8x256x1024.Slices ![5, 0, 0] S1x256x1024
  slices_S8x1024_S1x1024_5_0 : S8x1024.Slices ![5, 0] S1x1024
  slices_S8x1024x512_S1x1024x512_5_0_0 : S8x1024x512.Slices ![5, 0, 0] S1x1024x512
  slices_S8x512_S1x512_5_0 : S8x512.Slices ![5, 0] S1x512
  slices_S16384x8_S16384x1_0_5 : S16384x8.Slices ![0, 5] S16384x1
  slices_S8x256x1024_S1x256x1024_6_0_0 : S8x256x1024.Slices ![6, 0, 0] S1x256x1024
  slices_S8x1024_S1x1024_6_0 : S8x1024.Slices ![6, 0] S1x1024
  slices_S8x1024x512_S1x1024x512_6_0_0 : S8x1024x512.Slices ![6, 0, 0] S1x1024x512
  slices_S8x512_S1x512_6_0 : S8x512.Slices ![6, 0] S1x512
  slices_S16384x8_S16384x1_0_6 : S16384x8.Slices ![0, 6] S16384x1
  slices_S8x256x1024_S1x256x1024_7_0_0 : S8x256x1024.Slices ![7, 0, 0] S1x256x1024
  slices_S8x1024_S1x1024_7_0 : S8x1024.Slices ![7, 0] S1x1024
  slices_S8x1024x512_S1x1024x512_7_0_0 : S8x1024x512.Slices ![7, 0, 0] S1x1024x512
  slices_S8x512_S1x512_7_0 : S8x512.Slices ![7, 0] S1x512
  slices_S16384x8_S16384x1_0_7 : S16384x8.Slices ![0, 7] S16384x1
  dot_S16384x512_S512x1024_S16384x1024_1_0_0_1_n_n_wf : DotDims.WF S16384x512 S512x1024 S16384x1024 [1] [0] [0] [1] [] []
  dot_S16384x1024_S1024x256_S16384x256_1_0_0_1_n_n_wf : DotDims.WF S16384x1024 S1024x256 S16384x256 [1] [0] [0] [1] [] []
  dot_S16384x256_S256x1024_S16384x1024_1_0_0_1_n_n_wf : DotDims.WF S16384x256 S256x1024 S16384x1024 [1] [0] [0] [1] [] []
  dot_S16384x1024_S1024x512_S16384x512_1_0_0_1_n_n_wf : DotDims.WF S16384x1024 S1024x512 S16384x512 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Spec.lean ====
/-
  The routed network as ONE function of the ten argument arrays, index by index, on the extended reals.

  For a row r of the input (16384 rows) the shared trunk is two affine layers, each followed by a maximum with zero:
    hid r a = max (∑ k, x r k · W1 k a + b1 a) 0          (a < 1024)
    enc r b = max (∑ a, hid r a · W2 a b + b2 b) 0        (b < 256)
  and expert e (e < 8) applies to the encoding its own pair of layers
    exh e r a = max (∑ b, enc r b · W3 e b a + b3 e a) 0   (a < 1024)
    exy e r j = ∑ a, exh e r a · W4 e a j + b4 e j         (j < 512).
  Row r is routed by its integer id: gate e r is 1 when ids r = e and 0 otherwise (the comparison bit read as an
  unsigned integer). The result is the eight gated expert outputs added, in the order of the experts, onto zero:
    acc r j 0 = 0,   acc r j (e+1) = acc r j e + exy e r j · gate e r,   out r j = acc r j 8.
  Nothing here is reassociated or distributed: both programs compute exactly this expression tree.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The ten argument arrays, floats as extended reals, the ids as 32-bit words. -/
structure Args where
  x : (⟨2, ![16384, 512]⟩ : Shape).Idx → EReal
  ids : (⟨1, ![16384]⟩ : Shape).Idx → BitVec 32
  W1 : (⟨2, ![512, 1024]⟩ : Shape).Idx → EReal
  b1 : (⟨1, ![1024]⟩ : Shape).Idx → EReal
  W2 : (⟨2, ![1024, 256]⟩ : Shape).Idx → EReal
  b2 : (⟨1, ![256]⟩ : Shape).Idx → EReal
  W3 : (⟨3, ![8, 256, 1024]⟩ : Shape).Idx → EReal
  b3 : (⟨2, ![8, 1024]⟩ : Shape).Idx → EReal
  W4 : (⟨3, ![8, 1024, 512]⟩ : Shape).Idx → EReal
  b4 : (⟨2, ![8, 512]⟩ : Shape).Idx → EReal

/-- The float zero both programs splat (the word of +0.0; never evaluated: it is the same word on both sides). -/
abbrev zero : EReal := Ideal.ofBits .f32 0x00000000#32

/-- First trunk layer: row r of x against column a of W1, plus the bias, clamped below at zero. -/
def hid (A : Args) (r : Fin 16384) (a : Fin 1024) : EReal :=
  max ((∑ k : Fin 512, A.x (ix2 r k) * A.W1 (ix2 k a)) + A.b1 (ix1 a)) zero

/-- Second trunk layer: the encoding of row r. -/
def enc (A : Args) (r : Fin 16384) (b : Fin 256) : EReal :=
  max ((∑ a : Fin 1024, hid A r a * A.W2 (ix2 a b)) + A.b2 (ix1 b)) zero

/-- Expert e's hidden layer on the encoding of row r. -/
def exh (A : Args) (e : Fin 8) (r : Fin 16384) (a : Fin 1024) : EReal :=
  max ((∑ b : Fin 256, enc A r b * A.W3 (ix3 e b a)) + A.b3 (ix2 e a)) zero

/-- Expert e's output for row r (no clamp on the last layer). -/
def exy (A : Args) (e : Fin 8) (r : Fin 16384) (j : Fin 512) : EReal :=
  (∑ a : Fin 1024, exh A e r a * A.W4 (ix3 e a j)) + A.b4 (ix2 e j)

/-- The routing mask: 1 if row r's id is e, else 0 (the equality bit as an unsigned integer). -/
def gate (A : Args) (e : Fin 8) (r : Fin 16384) : EReal :=
  FloatOps.uitofp (F := Ideal) .f32 (IntOp.cmpi .eq (A.ids (ix1 r)) (BitVec.ofNat 32 e.val))

/-- Expert n's gated contribution at (r, j); nothing beyond the eight experts. -/
def term (A : Args) (r : Fin 16384) (j : Fin 512) (n : ℕ) : EReal :=
  if h : n < 8 then exy A ⟨n, h⟩ r j * gate A ⟨n, h⟩ r else 0

/-- The running sum after the first n experts, added in order onto zero. -/
def acc (A : Args) (r : Fin 16384) (j : Fin 512) : ℕ → EReal
  | 0 => zero
  | n + 1 => acc A r j n + term A r j n

theorem acc_zero (A : Args) (r : Fin 16384) (j : Fin 512) : acc A r j 0 = zero := rfl
theorem acc_succ (A : Args) (r : Fin 16384) (j : Fin 512) (n : ℕ) : acc A r j (n + 1) = acc A r j n + term A r j n := rfl
theorem term_lt (A : Args) (r : Fin 16384) (j : Fin 512) (n : ℕ) (h : n < 8) :
    term A r j n = exy A ⟨n, h⟩ r j * gate A ⟨n, h⟩ r := dif_pos h

/-- The whole result array. -/
def out (A : Args) : (⟨2, ![16384, 512]⟩ : Shape).Idx → EReal := fun i => acc A (i 0) (i 1) 8

/-- A one-bit word widened to 32 bits and read signed is the bit read unsigned: 0 or 1 either way. -/
theorem sitofp_setWidth_bit (b : BitVec 1) :
    FloatOps.sitofp (F := Ideal) .f32 (b.setWidth 32) = FloatOps.uitofp (F := Ideal) .f32 b := by
  have hb : b = 0#1 ∨ b = 1#1 := by
    rcases Nat.lt_or_ge b.toNat 1 with h | h
    · left; apply BitVec.eq_of_toNat_eq; simp; omega
    · right; apply BitVec.eq_of_toNat_eq; have := b.isLt; simp; omega
  rcases hb with rfl | rfl <;> rfl

end Cert.Spec

end
-- ==== Proof.LibKeepdims.lean ====
import Idealize.ShloMosaic.Lib.Pipeline.Value
import Idealize.ShloMosaic.Lib.ValueIdx

/-!
# A column vector's two layout steps read at an index

A row-wise sum that keeps its axis (`sum (…, axis = -1, keepdims = True)`) reaches a kernel as a vector `[a]`
re-laid as a column `[a, 1]` and later broadcast along the rows to `[a, b]`. Both steps read one entry of the
operand: entry `(i, 0)` of the column is entry `i` of the vector, and entry `(i, c)` of the broadcast is entry
`(i, 0)` of the column. (The companions for a leading unit axis, `[a] → [1, a]` and `[1, b] → [a, b]`, are in the
library's layout file; these are the trailing-unit-axis forms, in the same style.)
-/

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KMat.lean ====
/-
  The four matrix products of the body, each read at one entry as the plain sum over its contracted axis
  (on the extended reals a product accumulated onto the zero splat is just that sum; no order is left in it).
-/
import proofs.«167038_j19533511262661_1_alg».proof.Proof.Gen.KernelIdeal
import Idealize.ShloMosaic.Lib.ValueIdx
import Idealize.ShloMosaic.PureOps.Ideal.Laws

noncomputable section

namespace Cert.KernelIdeal.KMat

open Cert.KernelIdeal Idealize.ShloMosaic Idealize.ShloMosaic.ValueIdx
theorem mm1_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mm1_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of an [1024, 512] by a [512, 1024] matrix accumulated onto the zero splat, at entry (p, q): the plain sum over the contracted axis. -/
theorem mm1 (l : FVec Ideal S1024x512 .bf16) (r : FVec Ideal S512x1024 .bf16) (p : Fin 1024) (q : Fin 1024) :
    matmul dot_S1024x512_S512x1024_S1024x1024_1_0_0_1_n_n none l r (constant S1024x1024 .f32 0x00000000#32) (ix2 p q) = ∑ k : Fin 512, l (ix2 p k) * r (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact mm1_lhs0 _ _
    | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (dot_S1024x512_S512x1024_S1024x1024_1_0_0_1_n_n.rhsIdx_val_of_single rfl _ _).trans hk
    | ⟨1, _⟩ => exact mm1_rhs1 _ _)
  rw [el, er]

theorem mm2_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem mm2_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product of an [1024, 1024] by a [1024, 256] matrix accumulated onto the zero splat, at entry (p, q): the plain sum over the contracted axis. -/
theorem mm2 (l : FVec Ideal S1024x1024 .bf16) (r : FVec Ideal S1024x256 .bf16) (p : Fin 1024) (q : Fin 256) :
    matmul dot_S1024x1024_S1024x256_S1024x256_1_0_0_1_n_n none l r (constant S1024x256 .f32 0x00000000#32) (ix2 p q) = ∑ k : Fin 1024, l (ix2 p k) * r (ix2 k q) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact mm2_lhs0 _ _
    | ⟨1, _⟩ => exact (dot_S1024x1024_S1024x256_S1024x256_1_0_0_1_n_n.lhsIdx_val_of_single rfl _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (dot_S1024x1024_S1024x256_S1024x256_1_0_0_1_n_n.rhsIdx_val_of_single rfl _ _).trans hk
    | ⟨1, _⟩ => exact mm2_rhs1 _ _)
  rw [el, er]

theorem mm3_lhs0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem mm3_rhs1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of an [1024, 256] by a [256, 1024] matrix accumulated onto the zero splat, at entry (p, q): the plain sum over the contracted axis. -/
theorem mm3 (l : FVec Ideal S1024x256 .bf16) (r : FVec Ideal S256x1024 .bf16) (p : Fin 1024) (q : Fin 1024) :
    matmul dot_S1024x256_S256x1024_S1024x1024_1_0_0_1_n_n none l r (constant S1024x1024 .f32 0x00000000#32) (ix2 p q) = ∑ k : Fin 256, l (ix2 p k) * r (ix2 k q) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact mm3_lhs0 _ _
    | ⟨1, _⟩ => exact (dot_S1024x256_S256x1024_S1024x1024_1_0_0_1_n_n.lhsIdx_val_of_single rfl _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun a => Fin.ext (by
    match a with
    | ⟨0, _⟩ => exact (dot_S1024x256_S256x1024_S1024x1024_1_0_0_1_n_n.rhsIdx_val_of_single rfl _ _).trans hk
    | ⟨1, _⟩ => exact mm3_rhs1 _ _)
  rw [el, er]

theorem mm4_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem mm4_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of an [1024, 1024] by a [1024, 512] matrix accumulated onto the zero splat, at entry (p, q): the plain sum over the contracted axis. -/
theorem mm4 (l : FVec Ideal S1024x1024 .bf16) (r : FVec Ideal S1024x512 .bf16) (p : Fin 1024) (q : Fin 512) :
    matmul dot_S1024x1024_S1024x512_S1024x512_1_0_0_1_n_n none l r (constant S1024x512 .f32 0x00000000#32) (ix2 p q) = ∑ k : Fin 1024, l (ix2 p k) * r (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact mm4_lhs0 _ _
    | ⟨1, _⟩ => exact (dot_S1024x1024_S1024x512_S1024x512_1_0_0_1_n_n.lhsIdx_val_of_single rfl _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (dot_S1024x1024_S1024x512_S1024x512_1_0_0_1_n_n.rhsIdx_val_of_single rfl _ _).trans hk
    | ⟨1, _⟩ => exact mm4_rhs1 _ _)
  rw [el, er]

end Cert.KernelIdeal.KMat

end
-- ==== Proof.KPay.lean ====
/-
  The body's two stored values read at one entry, on the extended reals.

  The trunk value (stored into the first scratch at a row tile's first expert step) at entry (p, q) is
    max (∑ a, max (∑ k, x p k · W1 k a + b1 a) 0 · W2 a q + b2 q) 0
  of the blocks the body loaded, and the accumulator update at entry (p, j) is the accumulator's old entry plus
    (∑ a, max (∑ b, z p b · W3 b a + b3 a) 0 · W4 a j + b4 j) · [ids p = e]
  where e is the second grid coordinate. Format changes are the identity at the ideal values, a shape cast to the
  same shape is the identity, a block with leading unit axes is read at coordinate 0 there, and a one-row (one-column)
  vector broadcast over the rows (columns) reads its one row (column).
-/
import proofs.«167038_j19533511262661_1_alg».proof.Proof.Gen.KernelIdeal.Skeleton
import proofs.«167038_j19533511262661_1_alg».proof.Proof.Spec
import proofs.«167038_j19533511262661_1_alg».proof.Proof.LibKeepdims
import proofs.«167038_j19533511262661_1_alg».proof.Proof.KMat
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Cert.KernelIdeal.KMat Idealize.ShloMosaic Idealize.ShloMosaic.ValueIdx

/-- A clamped affine layer [1024,512]·[512,1024] + row bias, at (p, a). -/
theorem relu1_apply (l : FVec Ideal S1024x512 .bf16) (w : FVec Ideal S512x1024 .bf16) (b : FVec Ideal S1x1024 .f32)
    (p : Fin 1024) (a : Fin 1024) :
    maximumf (addf (matmul dot_S1024x512_S512x1024_S1024x1024_1_0_0_1_n_n none l w (constant S1024x1024 .f32 0x00000000#32))
        (broadcastTo S1024x1024 b broadcasts_S1x1024_S1024x1024)) (broadcast S1024x1024 (Scalar.ofBits (F := Ideal) .f32 0x00000000#32)) (ix2 p a)
      = max ((∑ k : Fin 512, l (ix2 p k) * w (ix2 k a)) + b (ix2 (0 : Fin 1) a)) Cert.Spec.zero := by
  show max (matmul dot_S1024x512_S512x1024_S1024x1024_1_0_0_1_n_n none l w (constant S1024x1024 .f32 0x00000000#32) (ix2 p a)
    + broadcastTo S1024x1024 b broadcasts_S1x1024_S1024x1024 (ix2 p a)) (Ideal.ofBits .f32 0x00000000#32) = _
  rw [mm1, broadcastTo_1b_ab_apply]

/-- A clamped affine layer [1024,1024]·[1024,256] + row bias, at (p, q). -/
theorem relu2_apply (l : FVec Ideal S1024x1024 .bf16) (w : FVec Ideal S1024x256 .bf16) (b : FVec Ideal S1x256 .f32)
    (p : Fin 1024) (q : Fin 256) :
    maximumf (addf (matmul dot_S1024x1024_S1024x256_S1024x256_1_0_0_1_n_n none l w (constant S1024x256 .f32 0x00000000#32))
        (broadcastTo S1024x256 b broadcasts_S1x256_S1024x256)) (broadcast S1024x256 (Scalar.ofBits (F := Ideal) .f32 0x00000000#32)) (ix2 p q)
      = max ((∑ a : Fin 1024, l (ix2 p a) * w (ix2 a q)) + b (ix2 (0 : Fin 1) q)) Cert.Spec.zero := by
  show max (matmul dot_S1024x1024_S1024x256_S1024x256_1_0_0_1_n_n none l w (constant S1024x256 .f32 0x00000000#32) (ix2 p q)
    + broadcastTo S1024x256 b broadcasts_S1x256_S1024x256 (ix2 p q)) (Ideal.ofBits .f32 0x00000000#32) = _
  rw [mm2, broadcastTo_1b_ab_apply]

/-- A clamped affine layer [1024,256]·[256,1024] + row bias, at (p, a). -/
theorem relu3_apply (l : FVec Ideal S1024x256 .bf16) (w : FVec Ideal S256x1024 .bf16) (b : FVec Ideal S1x1024 .f32)
    (p : Fin 1024) (a : Fin 1024) :
    maximumf (addf (matmul dot_S1024x256_S256x1024_S1024x1024_1_0_0_1_n_n none l w (constant S1024x1024 .f32 0x00000000#32))
        (broadcastTo S1024x1024 b broadcasts_S1x1024_S1024x1024)) (broadcast S1024x1024 (Scalar.ofBits (F := Ideal) .f32 0x00000000#32)) (ix2 p a)
      = max ((∑ k : Fin 256, l (ix2 p k) * w (ix2 k a)) + b (ix2 (0 : Fin 1) a)) Cert.Spec.zero := by
  show max (matmul dot_S1024x256_S256x1024_S1024x1024_1_0_0_1_n_n none l w (constant S1024x1024 .f32 0x00000000#32) (ix2 p a)
    + broadcastTo S1024x1024 b broadcasts_S1x1024_S1024x1024 (ix2 p a)) (Ideal.ofBits .f32 0x00000000#32) = _
  rw [mm3, broadcastTo_1b_ab_apply]

/-- An affine layer [1024,1024]·[1024,512] + row bias (no clamp), at (p, j). -/
theorem aff4_apply (l : FVec Ideal S1024x1024 .bf16) (w : FVec Ideal S1024x512 .bf16) (b : FVec Ideal S1x512 .f32)
    (p : Fin 1024) (j : Fin 512) :
    addf (matmul dot_S1024x1024_S1024x512_S1024x512_1_0_0_1_n_n none l w (constant S1024x512 .f32 0x00000000#32))
        (broadcastTo S1024x512 b broadcasts_S1x512_S1024x512) (ix2 p j)
      = (∑ a : Fin 1024, l (ix2 p a) * w (ix2 a j)) + b (ix2 (0 : Fin 1) j) := by
  show matmul dot_S1024x1024_S1024x512_S1024x512_1_0_0_1_n_n none l w (constant S1024x512 .f32 0x00000000#32) (ix2 p j)
    + broadcastTo S1024x512 b broadcasts_S1x512_S1024x512 (ix2 p j) = _
  rw [mm4, broadcastTo_1b_ab_apply]

/-- The routing mask column broadcast over the row: at (p, j) the equality bit of row p's id with the word e. -/
theorem mask_apply (ids : IVec S1024x1 32) (e : BitVec 32) (p : Fin 1024) (j : Fin 512) :
    broadcastTo S1024x512 (sitofp (F := Ideal) .f32 (extui 32 (cmpi .eq ids (broadcast S1024x1 e)) natLt_1_32))
        broadcasts_S1024x1_S1024x512 (ix2 p j)
      = FloatOps.uitofp (F := Ideal) .f32 (IntOp.cmpi .eq (ids (ix2 p (0 : Fin 1))) e) := by
  rw [broadcastTo_a1_ab_apply]
  exact Cert.Spec.sitofp_setWidth_bit _

/-- The trunk value at entry (p, q). -/
theorem pay2_apply (v38 : Vec Ideal S1024x512 .bf16) (v40 : Vec Ideal S512x1024 .bf16) (v43 : Vec Ideal S1x1024 .f32)
    (v50 : Vec Ideal S1024x256 .bf16) (v53 : Vec Ideal S1x256 .f32) (p : Fin 1024) (q : Fin 256) :
    k0_pay2 (F := Ideal) v38 v40 v43 v50 v53 (ix2 p q)
      = max ((∑ a : Fin 1024, max ((∑ k : Fin 512, v38 (ix2 p k) * v40 (ix2 k a)) + v43 (ix2 (0 : Fin 1) a)) Cert.Spec.zero
          * v50 (ix2 a q)) + v53 (ix2 (0 : Fin 1) q)) Cert.Spec.zero := by
  unfold k0_pay2
  simp only [shapeCast_self]
  refine (relu2_apply _ v50 v53 p q).trans ?_
  refine congrArg (fun s => max (s + v53 (ix2 (0 : Fin 1) q)) Cert.Spec.zero) (Finset.sum_congr rfl fun a _ => ?_)
  exact congrArg (· * v50 (ix2 a q)) (relu1_apply v38 v40 v43 p a)

/-- The accumulator update at entry (p, j). -/
theorem pay4_apply (i : grid0.Coords) (v3 : Vec Ideal S1024x256 .f32) (v5 : Vec Ideal S1x256x1024 .bf16) (v8 : Vec Ideal S1x1x1024 .f32)
    (v15 : Vec Ideal S1x1024x512 .bf16) (v18 : Vec Ideal S1x1x512 .f32) (v22 : Vec Ideal S1024x1 .i32) (v28 : Vec Ideal S1024x512 .f32)
    (p : Fin 1024) (j : Fin 512) :
    k0_pay4 (F := Ideal) i v3 v5 v8 v15 v18 v22 v28 (ix2 p j)
      = v28 (ix2 p j) + ((∑ a : Fin 1024, max ((∑ b : Fin 256, v3 (ix2 p b) * v5 (ix3 (0 : Fin 1) b a)) + v8 (ix3 (0 : Fin 1) (0 : Fin 1) a)) Cert.Spec.zero
          * v15 (ix3 (0 : Fin 1) a j)) + v18 (ix3 (0 : Fin 1) (0 : Fin 1) j))
        * FloatOps.uitofp (F := Ideal) .f32 (IntOp.cmpi .eq (v22 (ix2 p (0 : Fin 1))) (BitVec.ofNat 32 (i 1).val)) := by
  unfold k0_pay4
  simp only [shapeCast_self]
  refine congrArg₂ (fun a b => v28 (ix2 p j) + a * b) ?_ (mask_apply v22 _ p j)
  refine (aff4_apply _ _ _ p j).trans ?_
  refine congrArg₂ (· + ·) (Finset.sum_congr rfl fun a _ => ?_) ?_
  · refine congrArg₂ (· * ·) ?_ (shapeCast_1ab_ab_apply v15 _ a j)
    refine (relu3_apply _ _ _ p a).trans ?_
    refine congrArg₂ (fun s t => max (s + t) Cert.Spec.zero) (Finset.sum_congr rfl fun b _ => ?_) ?_
    · exact congrArg (v3 (ix2 p b) * ·) (shapeCast_1ab_ab_apply v5 _ b a)
    · exact shapeCast_1ab_ab_apply v8 _ (0 : Fin 1) a
  · exact shapeCast_1ab_ab_apply v18 _ (0 : Fin 1) j

end Cert.KernelIdeal.KPay

end
-- ==== Proof.LibMidUnit.lean ====
import Idealize.ShloMosaic.Lib.Pipeline.Value
import Idealize.ShloMosaic.Lib.ValueIdx

/-!
# A unit axis inserted between two axes, read at an index

A per-expert bias `[n, k]` reaches a kernel re-laid as `[n, 1, k]`, so that a block `[1, 1, k]` of it is one expert's
row. The re-laid array reads one entry of the operand: entry `(e, u, a)` is entry `(e, a)`, whatever the unit
coordinate `u` — both sit at row-major position `e · k + a`. (The companions for a leading or a trailing unit axis are
in the library's layout file and in the column-vector file beside this one; this is the middle-axis form, in the same
style.)
-/

namespace Idealize.ShloMosaic.ValueIdx

open Idealize.ShloMosaic

variable {α : Type}

/-- An `[n, k]` array cast to `[n, 1, k]` reads, at `(e, u, a)`, the operand at `(e, a)`, whatever the unit coordinate `u`. -/
theorem shapeCast_ab_a1b_apply {n k : ℕ} (x : (⟨2, ![n, k]⟩ : Shape).Idx → α) (h : (⟨2, ![n, k]⟩ : Shape).ShapeCasts ⟨3, ![n, 1, k]⟩)
    (e : Fin n) (u : Fin 1) (a : Fin k) : shapeCast ⟨3, ![n, 1, k]⟩ x h (ix3 e u a) = x (ix2 e a) :=
  shapeCast_apply x h _ _ (by
    have hu : u.val = 0 := by omega
    rw [Shape.rowMajor_val_three, Shape.rowMajor_val_two]
    show e.val * k + a.val = (e.val * 1 + u.val) * k + a.val
    rw [hu, Nat.mul_one, Nat.add_zero])

end Idealize.ShloMosaic.ValueIdx
-- ==== Proof.KBlocks.lean ====
/-
  The blocks the body loads at a grid point, as entries of the argument arrays.

  The grid is 16 row tiles by 8 experts, visited row tile by row tile, so point t is row tile t / 8 at expert t % 8.
  The row-tiled windows (the input rows and their ids) read rows 1024·(t / 8) + p; the trunk's weights and biases are
  one block each; the expert-tiled windows read expert t % 8's slab at leading coordinate 0 of the block. Before the
  call the host only changes float formats (the identity on the ideal values) and inserts unit axes (a reshape reads
  the entry at the same row-major position).
-/
import proofs.«167038_j19533511262661_1_alg».proof.Proof.Gen.KernelIdeal.Frame
import proofs.«167038_j19533511262661_1_alg».proof.Proof.Spec
import proofs.«167038_j19533511262661_1_alg».proof.Proof.LibKeepdims
import proofs.«167038_j19533511262661_1_alg».proof.Proof.LibMidUnit
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KBlocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The ten argument arrays of a launch, bundled for the specification. -/
def argsOf (c : Dev nD) : Cert.Spec.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

theorem N128 : cfg0.N = 128 := N_0

/-- Row p of the row tile of point t, as a row of the whole input. -/
def rowOf (t : Fin cfg0.N) (p : Fin 1024) : Fin 16384 :=
  ⟨1024 * (t.val / 8) + p.val, by have h : t.val < 128 := lt_of_lt_of_eq t.isLt N128; have := p.isLt; omega⟩

/-- The expert of point t. -/
def expOf (t : Fin cfg0.N) : Fin 8 := ⟨t.val % 8, Nat.mod_lt _ (by decide)⟩

/-! ## The arrays as the call finds them -/

theorem V0 (c : Dev nD) : (V m c main_v0 : S16384x512.Idx → EReal) = m ((c : Thread nD τ).loc main_arg0) := by
  dsimp only [V, hostOps0]; after_results; rfl
theorem V1 (c : Dev nD) : (V m c main_v1 : S16384x1.Idx → BitVec 32) = shapeCast S16384x1 (m ((c : Thread nD τ).loc main_arg1)) shapeCasts_S16384_S16384x1 := by
  dsimp only [V, hostOps0]; after_results; rfl
theorem V2 (c : Dev nD) : (V m c main_v2 : S512x1024.Idx → EReal) = m ((c : Thread nD τ).loc main_arg2) := by
  dsimp only [V, hostOps0]; after_results; rfl
theorem V3 (c : Dev nD) : (V m c main_v3 : S1024x256.Idx → EReal) = m ((c : Thread nD τ).loc main_arg4) := by
  dsimp only [V, hostOps0]; after_results; rfl
theorem V4 (c : Dev nD) : (V m c main_v4 : S8x256x1024.Idx → EReal) = m ((c : Thread nD τ).loc main_arg6) := by
  dsimp only [V, hostOps0]; after_results; rfl
theorem V5 (c : Dev nD) : (V m c main_v5 : S8x1024x512.Idx → EReal) = m ((c : Thread nD τ).loc main_arg8) := by
  dsimp only [V, hostOps0]; after_results; rfl
theorem V6 (c : Dev nD) : (V m c main_v6 : S1x1024.Idx → EReal) = shapeCast S1x1024 (m ((c : Thread nD τ).loc main_arg3)) shapeCasts_S1024_S1x1024 := by
  dsimp only [V, hostOps0]; after_results; rfl
theorem V7 (c : Dev nD) : (V m c main_v7 : S1x256.Idx → EReal) = shapeCast S1x256 (m ((c : Thread nD τ).loc main_arg5)) shapeCasts_S256_S1x256 := by
  dsimp only [V, hostOps0]; after_results; rfl
theorem V8 (c : Dev nD) : (V m c main_v8 : S8x1x1024.Idx → EReal) = shapeCast S8x1x1024 (m ((c : Thread nD τ).loc main_arg7)) shapeCasts_S8x1024_S8x1x1024 := by
  dsimp only [V, hostOps0]; after_results; rfl
theorem V9 (c : Dev nD) : (V m c main_v9 : S8x1x512.Idx → EReal) = shapeCast S8x1x512 (m ((c : Thread nD τ).loc main_arg9)) shapeCasts_S8x512_S8x1x512 := by
  dsimp only [V, hostOps0]; after_results; rfl

/-! ## Which block each window is on at point t (decided over the 128 points) -/

theorem idx_rows : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_10.index t (0 : Fin 2) = t.val / 8 ∧ win0_10.index t (1 : Fin 2) = 0 :=
  (by decide +kernel : ∀ t : Fin grid0.N, _)

theorem idx_trunk : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_expert : ∀ t : Fin cfg0.N, win0_6.index t (0 : Fin 3) = t.val % 8 ∧ win0_6.index t (1 : Fin 3) = 0 ∧ win0_6.index t (2 : Fin 3) = 0
    ∧ win0_7.index t (0 : Fin 3) = t.val % 8 ∧ win0_7.index t (1 : Fin 3) = 0 ∧ win0_7.index t (2 : Fin 3) = 0
    ∧ win0_8.index t (0 : Fin 3) = t.val % 8 ∧ win0_8.index t (1 : Fin 3) = 0 ∧ win0_8.index t (2 : Fin 3) = 0
    ∧ win0_9.index t (0 : Fin 3) = t.val % 8 ∧ win0_9.index t (1 : Fin 3) = 0 ∧ win0_9.index t (2 : Fin 3) = 0 :=
  (by decide +kernel : ∀ t : Fin grid0.N, _)

/-- The second grid coordinate of point t is its expert. -/
theorem coord1 : ∀ t : Fin cfg0.N, ((grid0.coords t) 1).val = t.val % 8 :=
  (by decide +kernel : ∀ t : Fin grid0.N, _)

/-! ## The blocks, entry by entry -/

theorem blk0 (c : Dev nD) (t : Fin cfg0.N) (p : Fin 1024) (k : Fin 512) :
    (iblk m c 0 t : Vec Ideal S1024x512 .bf16) (ix2 p k) = (argsOf m c).x (ix2 (rowOf t p) k) := by
  unfold iblk
  rw [View.read_apply]
  show V m c main_v0 _ = _
  rw [V0]
  refine congrArg _ (funext fun a => Fin.ext ?_)
  match a with
  | ⟨0, _⟩ => show win0_0.index t 0 * 1024 + 1 * p.val = 1024 * (t.val / 8) + p.val; rw [(idx_rows t).1]; omega
  | ⟨1, _⟩ => show win0_0.index t 1 * 512 + 1 * k.val = k.val; rw [(idx_rows t).2.1]; omega

theorem blk1 (c : Dev nD) (t : Fin cfg0.N) (p : Fin 1024) :
    (iblk m c 1 t : Vec Ideal S1024x1 .i32) (ix2 p (0 : Fin 1)) = (argsOf m c).ids (ix1 (rowOf t p)) := by
  unfold iblk
  rw [View.read_apply]
  show V m c main_v1 _ = _
  rw [V1]
  refine Eq.trans (congrArg _ (funext fun a => Fin.ext ?_)) (shapeCast_a_a1_apply (m ((c : Thread nD τ).loc main_arg1)) shapeCasts_S16384_S16384x1 (rowOf t p) (0 : Fin 1))
  match a with
  | ⟨0, _⟩ => show win0_1.index t 0 * 1024 + 1 * p.val = 1024 * (t.val / 8) + p.val; rw [(idx_rows t).2.2.1]; omega
  | ⟨1, _⟩ => show win0_1.index t 1 * 1 + 1 * 0 = 0; rw [(idx_rows t).2.2.2.1]

theorem blk2 (c : Dev nD) (t : Fin cfg0.N) (k : Fin 512) (a : Fin 1024) :
    (iblk m c 2 t : Vec Ideal S512x1024 .bf16) (ix2 k a) = (argsOf m c).W1 (ix2 k a) := by
  unfold iblk
  rw [View.read_apply]
  show V m c main_v2 _ = _
  rw [V2]
  refine congrArg _ (funext fun d => Fin.ext ?_)
  match d with
  | ⟨0, _⟩ => show win0_2.index t 0 * 512 + 1 * k.val = k.val; rw [(idx_trunk t).1]; omega
  | ⟨1, _⟩ => show win0_2.index t 1 * 1024 + 1 * a.val = a.val; rw [(idx_trunk t).2.1]; omega

theorem blk3 (c : Dev nD) (t : Fin cfg0.N) (a : Fin 1024) :
    (iblk m c 3 t : Vec Ideal S1x1024 .f32) (ix2 (0 : Fin 1) a) = (argsOf m c).b1 (ix1 a) := by
  unfold iblk
  rw [View.read_apply]
  show V m c main_v6 _ = _
  rw [V6]
  refine Eq.trans (congrArg _ (funext fun d => Fin.ext ?_)) (shapeCast_a_1a_apply (m ((c : Thread nD τ).loc main_arg3)) shapeCasts_S1024_S1x1024 (0 : Fin 1) a)
  match d with
  | ⟨0, _⟩ => show win0_3.index t 0 * 1 + 1 * 0 = 0; rw [(idx_trunk t).2.2.1]
  | ⟨1, _⟩ => show win0_3.index t 1 * 1024 + 1 * a.val = a.val; rw [(idx_trunk t).2.2.2.1]; omega

theorem blk4 (c : Dev nD) (t : Fin cfg0.N) (a : Fin 1024) (q : Fin 256) :
    (iblk m c 4 t : Vec Ideal S1024x256 .bf16) (ix2 a q) = (argsOf m c).W2 (ix2 a q) := by
  unfold iblk
  rw [View.read_apply]
  show V m c main_v3 _ = _
  rw [V3]
  refine congrArg _ (funext fun d => Fin.ext ?_)
  match d with
  | ⟨0, _⟩ => show win0_4.index t 0 * 1024 + 1 * a.val = a.val; rw [(idx_trunk t).2.2.2.2.1]; omega
  | ⟨1, _⟩ => show win0_4.index t 1 * 256 + 1 * q.val = q.val; rw [(idx_trunk t).2.2.2.2.2.1]; omega

theorem blk5 (c : Dev nD) (t : Fin cfg0.N) (q : Fin 256) :
    (iblk m c 5 t : Vec Ideal S1x256 .f32) (ix2 (0 : Fin 1) q) = (argsOf m c).b2 (ix1 q) := by
  unfold iblk
  rw [View.read_apply]
  show V m c main_v7 _ = _
  rw [V7]
  refine Eq.trans (congrArg _ (funext fun d => Fin.ext ?_)) (shapeCast_a_1a_apply (m ((c : Thread nD τ).loc main_arg5)) shapeCasts_S256_S1x256 (0 : Fin 1) q)
  match d with
  | ⟨0, _⟩ => show win0_5.index t 0 * 1 + 1 * 0 = 0; rw [(idx_trunk t).2.2.2.2.2.2.1]
  | ⟨1, _⟩ => show win0_5.index t 1 * 256 + 1 * q.val = q.val; rw [(idx_trunk t).2.2.2.2.2.2.2]; omega

theorem blk6 (c : Dev nD) (t : Fin cfg0.N) (b : Fin 256) (a : Fin 1024) :
    (iblk m c 6 t : Vec Ideal S1x256x1024 .bf16) (ix3 (0 : Fin 1) b a) = (argsOf m c).W3 (ix3 (expOf t) b a) := by
  unfold iblk
  rw [View.read_apply]
  show V m c main_v4 _ = _
  rw [V4]
  refine congrArg _ (funext fun d => Fin.ext ?_)
  match d with
  | ⟨0, _⟩ => show win0_6.index t 0 * 1 + 1 * 0 = t.val % 8; rw [(idx_expert t).1]; omega
  | ⟨1, _⟩ => show win0_6.index t 1 * 256 + 1 * b.val = b.val; rw [(idx_expert t).2.1]; omega
  | ⟨2, _⟩ => show win0_6.index t 2 * 1024 + 1 * a.val = a.val; rw [(idx_expert t).2.2.1]; omega

theorem blk7 (c : Dev nD) (t : Fin cfg0.N) (a : Fin 1024) :
    (iblk m c 7 t : Vec Ideal S1x1x1024 .f32) (ix3 (0 : Fin 1) (0 : Fin 1) a) = (argsOf m c).b3 (ix2 (expOf t) a) := by
  unfold iblk
  rw [View.read_apply]
  show V m c main_v8 _ = _
  rw [V8]
  refine Eq.trans (congrArg _ (funext fun d => Fin.ext ?_)) (shapeCast_ab_a1b_apply (m ((c : Thread nD τ).loc main_arg7)) shapeCasts_S8x1024_S8x1x1024 (expOf t) (0 : Fin 1) a)
  match d with
  | ⟨0, _⟩ => show win0_7.index t 0 * 1 + 1 * 0 = t.val % 8; rw [(idx_expert t).2.2.2.1]; omega
  | ⟨1, _⟩ => show win0_7.index t 1 * 1 + 1 * 0 = 0; rw [(idx_expert t).2.2.2.2.1]
  | ⟨2, _⟩ => show win0_7.index t 2 * 1024 + 1 * a.val = a.val; rw [(idx_expert t).2.2.2.2.2.1]; omega

theorem blk8 (c : Dev nD) (t : Fin cfg0.N) (a : Fin 1024) (j : Fin 512) :
    (iblk m c 8 t : Vec Ideal S1x1024x512 .bf16) (ix3 (0 : Fin 1) a j) = (argsOf m c).W4 (ix3 (expOf t) a j) := by
  unfold iblk
  rw [View.read_apply]
  show V m c main_v5 _ = _
  rw [V5]
  refine congrArg _ (funext fun d => Fin.ext ?_)
  match d with
  | ⟨0, _⟩ => show win0_8.index t 0 * 1 + 1 * 0 = t.val % 8; rw [(idx_expert t).2.2.2.2.2.2.1]; omega
  | ⟨1, _⟩ => show win0_8.index t 1 * 1024 + 1 * a.val = a.val; rw [(idx_expert t).2.2.2.2.2.2.2.1]; omega
  | ⟨2, _⟩ => show win0_8.index t 2 * 512 + 1 * j.val = j.val; rw [(idx_expert t).2.2.2.2.2.2.2.2.1]; omega

theorem blk9 (c : Dev nD) (t : Fin cfg0.N) (j : Fin 512) :
    (iblk m c 9 t : Vec Ideal S1x1x512 .f32) (ix3 (0 : Fin 1) (0 : Fin 1) j) = (argsOf m c).b4 (ix2 (expOf t) j) := by
  unfold iblk
  rw [View.read_apply]
  show V m c main_v9 _ = _
  rw [V9]
  refine Eq.trans (congrArg _ (funext fun d => Fin.ext ?_)) (shapeCast_ab_a1b_apply (m ((c : Thread nD τ).loc main_arg9)) shapeCasts_S8x512_S8x1x512 (expOf t) (0 : Fin 1) j)
  match d with
  | ⟨0, _⟩ => show win0_9.index t 0 * 1 + 1 * 0 = t.val % 8; rw [(idx_expert t).2.2.2.2.2.2.2.2.2.1]; omega
  | ⟨1, _⟩ => show win0_9.index t 1 * 1 + 1 * 0 = 0; rw [(idx_expert t).2.2.2.2.2.2.2.2.2.2.1]
  | ⟨2, _⟩ => show win0_9.index t 2 * 512 + 1 * j.val = j.val; rw [(idx_expert t).2.2.2.2.2.2.2.2.2.2.2]; omega

end Cert.KernelIdeal.KBlocks

end
-- ==== Proof.KStep.lean ====
/-
  One grid point's update of the two carried buffers, as the specification's functions on the point's row tile.

  Write r = 1024·(t / 8) + p for row p of point t's row tile and e = t % 8 for its expert. The trunk value the body
  computes from the point's blocks is the specification's encoding of those rows, and the body's accumulator update
  turns the running sum after e experts into the running sum after e + 1: it adds expert e's output for row r times
  the routing bit of row r, exactly the specification's term e.
-/
import proofs.«167038_j19533511262661_1_alg».proof.Proof.KPay
import proofs.«167038_j19533511262661_1_alg».proof.Proof.KBlocks

noncomputable section

namespace Cert.KernelIdeal.KStep

open Cert.KernelIdeal Cert.KernelIdeal.Gen Cert.KernelIdeal.KBlocks Cert.KernelIdeal.KPay Idealize.ShloMosaic Idealize.ShloMosaic.TcCoe Idealize.SL.Sem Idealize.ShloMosaic.ValueIdx

variable (m : (ℓ : Loc nD τ sig) → Buf (Elt Ideal) ℓ)

/-- The encoding of the rows of point t's row tile, as a [1024, 256] block. -/
def encBlk (c : Dev nD) (t : Fin cfg0.N) : Vec Ideal S1024x256 .f32 :=
  fun y => Cert.Spec.enc (argsOf m c) (rowOf t (y 0)) (y 1)

/-- The running sum after k experts on the rows of point t's row tile, as a [1024, 512] block. -/
def accBlk (c : Dev nD) (t : Fin cfg0.N) (k : ℕ) : Vec Ideal S1024x512 .f32 :=
  fun y => Cert.Spec.acc (argsOf m c) (rowOf t (y 0)) (y 1) k

/-- The zeros the body stores at a row tile's first step are the running sum after no expert. -/
theorem zeros_eq (c : Dev nD) (t : Fin cfg0.N) : (k0_pay3 (F := Ideal)) = accBlk m c t 0 := by
  unfold k0_pay3
  simp only [shapeCast_self]
  rfl

/-- The trunk value of the point's blocks is the encoding of its rows. -/
theorem trunk_eq (c : Dev nD) (t : Fin cfg0.N) :
    k0_pay2 (F := Ideal) (iblk m c 0 t) (iblk m c 2 t) (iblk m c 3 t) (iblk m c 4 t) (iblk m c 5 t) = encBlk m c t := by
  funext y
  obtain ⟨p, q, rfl⟩ : ∃ (p : Fin 1024) (q : Fin 256), y = ix2 p q := ⟨y 0, y 1, eq_ix2 y⟩
  refine (pay2_apply (iblk m c 0 t) (iblk m c 2 t) (iblk m c 3 t) (iblk m c 4 t) (iblk m c 5 t) p q).trans ?_
  simp only [blk0, blk2, blk3, blk4, blk5]
  rfl

/-- The accumulator update at point t takes the running sum after t % 8 experts to the one after t % 8 + 1. -/
theorem step_eq (c : Dev nD) (t : Fin cfg0.N) :
    k0_pay1 (k0_pay4 (F := Ideal) (grid0.coords t) (encBlk m c t) (iblk m c 6 t) (iblk m c 7 t) (iblk m c 8 t) (iblk m c 9 t) (iblk m c 1 t)
      (accBlk m c t (t.val % 8))) = accBlk m c t (t.val % 8 + 1) := by
  unfold k0_pay1
  rw [shapeCast_self]
  funext y
  obtain ⟨p, j, rfl⟩ : ∃ (p : Fin 1024) (j : Fin 512), y = ix2 p j := ⟨y 0, y 1, eq_ix2 y⟩
  refine (pay4_apply (grid0.coords t) (encBlk m c t) (iblk m c 6 t) (iblk m c 7 t) (iblk m c 8 t) (iblk m c 9 t) (iblk m c 1 t)
    (accBlk m c t (t.val % 8)) p j).trans ?_
  simp only [blk6, blk7, blk8, blk9, blk1, coord1]
  show Cert.Spec.acc (argsOf m c) (rowOf t p) j (t.val % 8) + _ = Cert.Spec.acc (argsOf m c) (rowOf t p) j (t.val % 8 + 1)
  rw [Cert.Spec.acc_succ, Cert.Spec.term_lt _ _ _ _ (Nat.mod_lt _ (by decide))]
  rfl

end Cert.KernelIdeal.KStep

end
-- ==== Proof.KPieces.lean ====
/-
  What each control case of the body leaves in the two carried scratch buffers and in the output block, as values.

  At a row tile's first expert step the body stores the trunk value into the first scratch and zeros into the second,
  then reads both back and stores the first gated expert output added to the zeros. At every later step the first
  scratch is left alone and the second receives its old contents plus that step's gated expert output. At the last
  expert step the output block is the second scratch just stored. Each store covers its whole buffer through the
  zero-offset rectangle, so what is read back is the last payload stored, and each load of a whole buffer is the
  buffer's contents.
-/
import proofs.«167038_j19533511262661_1_alg».proof.Proof.Gen.KernelIdeal.Frame
import Idealize.ShloMosaic.Lib.Pipeline.Value
import Idealize.ShloMosaic.Lib.Tactic

noncomputable section

namespace Cert.KernelIdeal.KPieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a row tile: the first scratch ends at the trunk value of the loaded blocks. -/
theorem sA0 (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x256 .f32) (harg7 : arg7.IsWhole) (arg8 : Memref sig .tc .vmem S1x256x1024 .bf16) (harg8 : arg8.IsWhole) (arg9 : Memref sig .tc .vmem S1x1x1024 .f32) (harg9 : arg9.IsWhole) (arg10 : Memref sig .tc .vmem S1x1024x512 .bf16) (harg10 : arg10.IsWhole) (arg11 : Memref sig .tc .vmem S1x1x512 .f32) (harg11 : arg11.IsWhole) (arg12 : Memref sig .tc .vmem S1024x512 .f32) (harg12 : arg12.IsWhole) (arg13 : Memref sig .tc .vmem S1024x256 .f32) (harg13 : arg13.IsWhole) (arg14 : Memref sig .tc .vmem S1024x512 .f32) (harg14 : arg14.IsWhole) (hc0 : cond0_0 i) (hc1 : ¬cond0_1 i) (x0 : Vec F S1024x512 .bf16) (x1 : Vec F S1024x1 .i32) (x2 : Vec F S512x1024 .bf16) (x3 : Vec F S1x1024 .f32) (x4 : Vec F S1024x256 .bf16) (x5 : Vec F S1x256 .f32) (x6 : Vec F S1x256x1024 .bf16) (x7 : Vec F S1x1x1024 .f32) (x8 : Vec F S1x1024x512 .bf16) (x9 : Vec F S1x1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay2 x0 x2 x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1024x512) hz2, View.ld_unit_zero (S := S1024x1) hz2, View.ld_unit_zero (S := S512x1024) hz2, View.ld_unit_zero (S := S1x1024) hz2, View.ld_unit_zero (S := S1024x256) hz2, View.ld_unit_zero (S := S1x256) hz2,
    View.ld_unit_zero (S := S1x256x1024) hz3, View.ld_unit_zero (S := S1x1x1024) hz3, View.ld_unit_zero (S := S1x1024x512) hz3, View.ld_unit_zero (S := S1x1x512) hz3]

/-- First step of a row tile: the second scratch ends at the zeros plus the first gated expert output, computed from
    the trunk value just stored. -/
theorem sA1 (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x256 .f32) (harg7 : arg7.IsWhole) (arg8 : Memref sig .tc .vmem S1x256x1024 .bf16) (harg8 : arg8.IsWhole) (arg9 : Memref sig .tc .vmem S1x1x1024 .f32) (harg9 : arg9.IsWhole) (arg10 : Memref sig .tc .vmem S1x1024x512 .bf16) (harg10 : arg10.IsWhole) (arg11 : Memref sig .tc .vmem S1x1x512 .f32) (harg11 : arg11.IsWhole) (arg12 : Memref sig .tc .vmem S1024x512 .f32) (harg12 : arg12.IsWhole) (arg13 : Memref sig .tc .vmem S1024x256 .f32) (harg13 : arg13.IsWhole) (arg14 : Memref sig .tc .vmem S1024x512 .f32) (harg14 : arg14.IsWhole) (hc0 : cond0_0 i) (hc1 : ¬cond0_1 i) (x0 : Vec F S1024x512 .bf16) (x1 : Vec F S1024x1 .i32) (x2 : Vec F S512x1024 .bf16) (x3 : Vec F S1x1024 .f32) (x4 : Vec F S1024x256 .bf16) (x5 : Vec F S1x256 .f32) (x6 : Vec F S1x256x1024 .bf16) (x7 : Vec F S1x1x1024 .f32) (x8 : Vec F S1x1024x512 .bf16) (x9 : Vec F S1x1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay1 (k0_pay4 i (k0_pay2 x0 x2 x3 x4 x5) x6 x7 x8 x9 x1 k0_pay3) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S1024x512) hz2, View.readCov_unit_zero (S := S1024x256) _ hz2, View.readCov_unit_zero (S := S1024x512) _ hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1024x512) hz2, View.ld_unit_zero (S := S1024x1) hz2, View.ld_unit_zero (S := S512x1024) hz2, View.ld_unit_zero (S := S1x1024) hz2, View.ld_unit_zero (S := S1024x256) hz2, View.ld_unit_zero (S := S1x256) hz2,
    View.ld_unit_zero (S := S1x256x1024) hz3, View.ld_unit_zero (S := S1x1x1024) hz3, View.ld_unit_zero (S := S1x1024x512) hz3, View.ld_unit_zero (S := S1x1x512) hz3]

/-- A middle step: the second scratch ends at its old contents plus this step's gated expert output, computed from
    the first scratch's old contents. -/
theorem sB1 (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x256 .f32) (harg7 : arg7.IsWhole) (arg8 : Memref sig .tc .vmem S1x256x1024 .bf16) (harg8 : arg8.IsWhole) (arg9 : Memref sig .tc .vmem S1x1x1024 .f32) (harg9 : arg9.IsWhole) (arg10 : Memref sig .tc .vmem S1x1024x512 .bf16) (harg10 : arg10.IsWhole) (arg11 : Memref sig .tc .vmem S1x1x512 .f32) (harg11 : arg11.IsWhole) (arg12 : Memref sig .tc .vmem S1024x512 .f32) (harg12 : arg12.IsWhole) (arg13 : Memref sig .tc .vmem S1024x256 .f32) (harg13 : arg13.IsWhole) (arg14 : Memref sig .tc .vmem S1024x512 .f32) (harg14 : arg14.IsWhole) (hc0 : ¬cond0_0 i) (hc1 : ¬cond0_1 i) (x0 : Vec F S1024x512 .bf16) (x1 : Vec F S1024x1 .i32) (x2 : Vec F S512x1024 .bf16) (x3 : Vec F S1x1024 .f32) (x4 : Vec F S1024x256 .bf16) (x5 : Vec F S1x256 .f32) (x6 : Vec F S1x256x1024 .bf16) (x7 : Vec F S1x1x1024 .f32) (x8 : Vec F S1x1024x512 .bf16) (x9 : Vec F S1x1x512 .f32) (xs0 : Vec F S1024x256 .f32) (xs1 : Vec F S1024x512 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay1 (k0_pay4 i xs0 x6 x7 x8 x9 x1 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1024x512) hz2, View.ld_unit_zero (S := S1024x1) hz2, View.ld_unit_zero (S := S512x1024) hz2, View.ld_unit_zero (S := S1x1024) hz2, View.ld_unit_zero (S := S1024x256) hz2, View.ld_unit_zero (S := S1x256) hz2,
    View.ld_unit_zero (S := S1x256x1024) hz3, View.ld_unit_zero (S := S1x1x1024) hz3, View.ld_unit_zero (S := S1x1024x512) hz3, View.ld_unit_zero (S := S1x1x512) hz3]

/-- The last step: the same update of the second scratch. -/
theorem sC1 (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x256 .f32) (harg7 : arg7.IsWhole) (arg8 : Memref sig .tc .vmem S1x256x1024 .bf16) (harg8 : arg8.IsWhole) (arg9 : Memref sig .tc .vmem S1x1x1024 .f32) (harg9 : arg9.IsWhole) (arg10 : Memref sig .tc .vmem S1x1024x512 .bf16) (harg10 : arg10.IsWhole) (arg11 : Memref sig .tc .vmem S1x1x512 .f32) (harg11 : arg11.IsWhole) (arg12 : Memref sig .tc .vmem S1024x512 .f32) (harg12 : arg12.IsWhole) (arg13 : Memref sig .tc .vmem S1024x256 .f32) (harg13 : arg13.IsWhole) (arg14 : Memref sig .tc .vmem S1024x512 .f32) (harg14 : arg14.IsWhole) (hc0 : ¬cond0_0 i) (hc1 : cond0_1 i) (x0 : Vec F S1024x512 .bf16) (x1 : Vec F S1024x1 .i32) (x2 : Vec F S512x1024 .bf16) (x3 : Vec F S1x1024 .f32) (x4 : Vec F S1024x256 .bf16) (x5 : Vec F S1x256 .f32) (x6 : Vec F S1x256x1024 .bf16) (x7 : Vec F S1x1x1024 .f32) (x8 : Vec F S1x1024x512 .bf16) (x9 : Vec F S1x1x512 .f32) (xs0 : Vec F S1024x256 .f32) (xs1 : Vec F S1024x512 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay1 (k0_pay4 i xs0 x6 x7 x8 x9 x1 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1024x512) hz2, View.ld_unit_zero (S := S1024x1) hz2, View.ld_unit_zero (S := S512x1024) hz2, View.ld_unit_zero (S := S1x1024) hz2, View.ld_unit_zero (S := S1024x256) hz2, View.ld_unit_zero (S := S1x256) hz2,
    View.ld_unit_zero (S := S1x256x1024) hz3, View.ld_unit_zero (S := S1x1x1024) hz3, View.ld_unit_zero (S := S1x1024x512) hz3, View.ld_unit_zero (S := S1x1x512) hz3]

/-- The last step: the output block is the second scratch as just stored. -/
theorem oC10 (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1x256 .f32) (harg7 : arg7.IsWhole) (arg8 : Memref sig .tc .vmem S1x256x1024 .bf16) (harg8 : arg8.IsWhole) (arg9 : Memref sig .tc .vmem S1x1x1024 .f32) (harg9 : arg9.IsWhole) (arg10 : Memref sig .tc .vmem S1x1024x512 .bf16) (harg10 : arg10.IsWhole) (arg11 : Memref sig .tc .vmem S1x1x512 .f32) (harg11 : arg11.IsWhole) (arg12 : Memref sig .tc .vmem S1024x512 .f32) (harg12 : arg12.IsWhole) (arg13 : Memref sig .tc .vmem S1024x256 .f32) (harg13 : arg13.IsWhole) (arg14 : Memref sig .tc .vmem S1024x512 .f32) (harg14 : arg14.IsWhole) (hc0 : ¬cond0_0 i) (hc1 : cond0_1 i) (x0 : Vec F S1024x512 .bf16) (x1 : Vec F S1024x1 .i32) (x2 : Vec F S512x1024 .bf16) (x3 : Vec F S1x1024 .f32) (x4 : Vec F S1024x256 .bf16) (x5 : Vec F S1x256 .f32) (x6 : Vec F S1x256x1024 .bf16) (x7 : Vec F S1x1x1024 .f32) (x8 : Vec F S1x1024x512 .bf16) (x9 : Vec F S1x1x512 .f32) (xs0 : Vec F S1024x256 .f32) (xs1 : Vec F S1024x512 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay1 (k0_pay4 i xs0 x6 x7 x8 x9 x1 xs1) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2, View.readCov_unit_zero (S := S1024x512) _ hz2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread,
    View.ld_unit_zero (S := S1024x512) hz2, View.ld_unit_zero (S := S1024x1) hz2, View.ld_unit_zero (S := S512x1024) hz2, View.ld_unit_zero (S := S1x1024) hz2, View.ld_unit_zero (S := S1024x256) hz2, View.ld_unit_zero (S := S1x256) hz2,
    View.ld_unit_zero (S := S1x256x1024) hz3, View.ld_unit_zero (S := S1x1x1024) hz3, View.ld_unit_zero (S := S1x1024x512) hz3, View.ld_unit_zero (S := S1x1x512) hz3]

end Cert.KernelIdeal.KPieces

end
-- ==== Proof.KFinal.lean ====
/-
  The whole run of the kernel: its result array is the specification's function of the argument arrays.

  Within a row tile the eight expert steps run in order. After the step of expert e the first carried buffer holds
  the encoding of the tile's rows (written at the first step, untouched afterwards) and the second holds the running
  sum after e + 1 experts: by induction on the grid point, the first step starting from the zeros and every later step
  from what the step before left. The output block is written at the last expert's step only, with the full sum, and
  the sixteen blocks written back tile the result array.
-/
import proofs.«167038_j19533511262661_1_alg».proof.Proof.KStep
import proofs.«167038_j19533511262661_1_alg».proof.Proof.KPieces
import proofs.«167038_j19533511262661_1_alg».proof.Proof.Gen.KernelIdeal.Value

noncomputable section

namespace Cert.KernelIdeal.KFinal

open Cert.KernelIdeal Cert.KernelIdeal.Gen Cert.KernelIdeal.KBlocks Cert.KernelIdeal.KStep Cert.KernelIdeal.KPieces Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Two points of one row tile see the same rows. -/
theorem encBlk_congr (c : Dev nD) (t t' : Fin cfg0.N) (h : t.val / 8 = t'.val / 8) : encBlk m c t = encBlk m c t' := by
  funext y
  unfold encBlk
  exact congrArg (fun r => Cert.Spec.enc (argsOf m c) r (y 1)) (Fin.ext (by simp only [rowOf]; rw [h]))

theorem accBlk_congr (c : Dev nD) (t t' : Fin cfg0.N) (k k' : ℕ) (h : t.val / 8 = t'.val / 8) (hk : k = k') :
    accBlk m c t k = accBlk m c t' k' := by
  subst hk
  funext y
  unfold accBlk
  exact congrArg (fun r => Cert.Spec.acc (argsOf m c) r (y 1) k) (Fin.ext (by simp only [rowOf]; rw [h]))

/-- What the two carried buffers hold after point n: the encoding of its row tile, and the running sum after its expert. -/
theorem carried (c : Dev nD) : ∀ (n : ℕ) (hn : n < cfg0.N),
    (outsAt0 m c n hn).2.1 = encBlk m c ⟨n, hn⟩ ∧ (outsAt0 m c n hn).2.2 = accBlk m c ⟨n, hn⟩ (n % 8 + 1) := by
  intro n
  induction n using Nat.strong_induction_on with
  | _ n ih =>
    intro hn
    have hN : n < 128 := lt_of_lt_of_eq hn N128
    by_cases h0 : n % 8 = 0
    · have h1 : ¬n % 8 = 7 := by omega
      rw [outsAt0_A m c ⟨n, hn⟩ h0 h1]
      dsimp only
      refine ⟨(sA0 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N))).trans (trunk_eq m c ⟨n, hn⟩), ?_⟩
      refine (sA1 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N))).trans ?_
      have e0 : accBlk m c ⟨n, hn⟩ 0 = accBlk m c ⟨n, hn⟩ (n % 8) := by rw [h0]
      exact (congrArg₂ (fun (z : Vec Ideal S1024x256 .f32) (a : Vec Ideal S1024x512 .f32) => k0_pay1 (k0_pay4 (F := Ideal) (grid0.coords (⟨n, hn⟩ : Fin cfg0.N)) z (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (iblk m c 1 (⟨n, hn⟩ : Fin cfg0.N)) a)) (trunk_eq m c ⟨n, hn⟩) ((zeros_eq m c ⟨n, hn⟩).trans e0)).trans (step_eq m c ⟨n, hn⟩)
    · have hp : n - 1 < cfg0.N := Nat.lt_of_le_of_lt (Nat.sub_le _ _) hn
      have hd : (n - 1) / 8 = n / 8 := by omega
      have hm : (n - 1) % 8 + 1 = n % 8 := by omega
      obtain ⟨ihz, iha⟩ := ih (n - 1) (by omega) hp
      have ez : (outsAt0 m c (n - 1) hp).2.1 = encBlk m c ⟨n, hn⟩ := ihz.trans (encBlk_congr m c ⟨n - 1, hp⟩ ⟨n, hn⟩ hd)
      have ea : (outsAt0 m c (n - 1) hp).2.2 = accBlk m c ⟨n, hn⟩ (n % 8) := iha.trans (accBlk_congr m c ⟨n - 1, hp⟩ ⟨n, hn⟩ _ _ hd hm)
      by_cases h1 : n % 8 = 7
      · rw [outsAt0_C m c ⟨n, hn⟩ h0 h1]
        dsimp only
        refine ⟨ez, ?_⟩
        refine (sC1 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) scM0_0 (Memref.isWhole_whole _) scM0_1 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (outsAt0 m c (n - 1) hp).2.1 (outsAt0 m c (n - 1) hp).2.2).trans ?_
        exact (congrArg₂ (fun (z : Vec Ideal S1024x256 .f32) (a : Vec Ideal S1024x512 .f32) => k0_pay1 (k0_pay4 (F := Ideal) (grid0.coords (⟨n, hn⟩ : Fin cfg0.N)) z (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (iblk m c 1 (⟨n, hn⟩ : Fin cfg0.N)) a)) ez ea).trans (step_eq m c ⟨n, hn⟩)
      · rw [outsAt0_B m c ⟨n, hn⟩ h0 h1]
        dsimp only
        refine ⟨ez, ?_⟩
        refine (sB1 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) scM0_0 (Memref.isWhole_whole _) scM0_1 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (outsAt0 m c (n - 1) hp).2.1 (outsAt0 m c (n - 1) hp).2.2).trans ?_
        exact (congrArg₂ (fun (z : Vec Ideal S1024x256 .f32) (a : Vec Ideal S1024x512 .f32) => k0_pay1 (k0_pay4 (F := Ideal) (grid0.coords (⟨n, hn⟩ : Fin cfg0.N)) z (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (iblk m c 1 (⟨n, hn⟩ : Fin cfg0.N)) a)) ez ea).trans (step_eq m c ⟨n, hn⟩)

/-- At the last expert's step the output block holds the full sum of the tile's rows. -/
theorem out_last (c : Dev nD) (t : Fin cfg0.N) (h7 : t.val % 8 = 7) : (outsAt0 m c t.val t.isLt).1 = accBlk m c t 8 := by
  obtain ⟨n, hn⟩ := t
  have h7' : n % 8 = 7 := h7
  have hN : n < 128 := lt_of_lt_of_eq hn N128
  have h0 : ¬n % 8 = 0 := by omega
  have hp : n - 1 < cfg0.N := Nat.lt_of_le_of_lt (Nat.sub_le _ _) hn
  have hd : (n - 1) / 8 = n / 8 := by omega
  have hm : (n - 1) % 8 + 1 = n % 8 := by omega
  obtain ⟨ihz, iha⟩ := carried m c (n - 1) hp
  have ez : (outsAt0 m c (n - 1) hp).2.1 = encBlk m c ⟨n, hn⟩ := ihz.trans (encBlk_congr m c ⟨n - 1, hp⟩ ⟨n, hn⟩ hd)
  have ea : (outsAt0 m c (n - 1) hp).2.2 = accBlk m c ⟨n, hn⟩ (n % 8) := iha.trans (accBlk_congr m c ⟨n - 1, hp⟩ ⟨n, hn⟩ _ _ hd hm)
  show (outsAt0 m c n hn).1 = _
  rw [outsAt0_C m c ⟨n, hn⟩ h0 h7']
  dsimp only
  refine (oC10 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) (ms0_8 (⟨n, hn⟩ : Fin cfg0.N)) (hs0_8 (⟨n, hn⟩ : Fin cfg0.N)) (ms0_9 (⟨n, hn⟩ : Fin cfg0.N)) (hs0_9 (⟨n, hn⟩ : Fin cfg0.N)) (ms0_10 (⟨n, hn⟩ : Fin cfg0.N)) (hs0_10 (⟨n, hn⟩ : Fin cfg0.N)) scM0_0 (Memref.isWhole_whole _) scM0_1 (Memref.isWhole_whole _) (fun h => h0 ((hcond0_0 (⟨n, hn⟩ : Fin cfg0.N)).mp h)) ((hcond0_1 (⟨n, hn⟩ : Fin cfg0.N)).mpr h7') (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (outsAt0 m c (n - 1) hp).2.1 (outsAt0 m c (n - 1) hp).2.2).trans ?_
  refine ((congrArg₂ (fun (z : Vec Ideal S1024x256 .f32) (a : Vec Ideal S1024x512 .f32) => k0_pay1 (k0_pay4 (F := Ideal) (grid0.coords (⟨n, hn⟩ : Fin cfg0.N)) z (iblk m c 6 (⟨n, hn⟩ : Fin cfg0.N)) (iblk m c 7 (⟨n, hn⟩ : Fin cfg0.N)) (iblk m c 8 (⟨n, hn⟩ : Fin cfg0.N)) (iblk m c 9 (⟨n, hn⟩ : Fin cfg0.N)) (iblk m c 1 (⟨n, hn⟩ : Fin cfg0.N)) a)) ez ea).trans (step_eq m c ⟨n, hn⟩)).trans ?_
  exact accBlk_congr m c ⟨n, hn⟩ ⟨n, hn⟩ _ _ rfl (by show n % 8 + 1 = 8; omega)

/-- What a write-back point writes is its block of the specification's result. -/
theorem flushed_eq (c : Dev nD) (t : Fin cfg0.N) (hf : (cfg0.win 10).flush t = true) :
    (dats m 0 c).flushed 10 t = ((cfg0.win 10).blk t).view.read (Elt Ideal) (Cert.Spec.out (argsOf m c)) := by
  have h7 : t.val % 8 = 7 := (flush0_10 t).mp hf
  rw [Cert.KernelIdeal.Value.flushed10, out_last m c t h7]
  funext y
  rw [View.read_apply]
  show accBlk m c t 8 y = Cert.Spec.out (argsOf m c) (((cfg0.win 10).blk t).view.emb y)
  unfold accBlk Cert.Spec.out
  have e0 : (((cfg0.win 10).blk t).view.emb y) 0 = rowOf t (y 0) := Fin.ext (by
    show win0_10.index t 0 * 1024 + 1 * (y 0).val = 1024 * (t.val / 8) + (y 0).val
    rw [(idx_rows t).2.2.2.2.1]; omega)
  have e1 : (((cfg0.win 10).blk t).view.emb y) 1 = y 1 := Fin.ext (by
    show win0_10.index t 1 * 512 + 1 * (y 1).val = (y 1).val
    rw [(idx_rows t).2.2.2.2.2]; omega)
  rw [e0, e1]

/-- An index of the result array is in point t's block iff each coordinate is in the block's range. -/
theorem mem_blk (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v10).slice (win0_10.rect t)).set ↔ _
  rw [View.set_slice_whole, Rect.mem_set_unit]
  exact Iff.rfl

/-- Every entry of the result array lies in the block some write-back point writes: the last step of its row tile. -/
theorem cover (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have ht : 8 * ((i 0).val / 1024) + 7 < cfg0.N := by rw [N128]; omega
  refine ⟨⟨8 * ((i 0).val / 1024) + 7, ht⟩, (flush0_10 _).mpr (by show (8 * ((i 0).val / 1024) + 7) % 8 = 7; omega), ?_⟩
  rw [mem_blk]
  intro a
  match a with
  | ⟨0, _⟩ =>
    show win0_10.index ⟨8 * ((i 0).val / 1024) + 7, ht⟩ 0 * 1024 ≤ (i 0).val ∧ (i 0).val < win0_10.index ⟨8 * ((i 0).val / 1024) + 7, ht⟩ 0 * 1024 + 1024
    rw [(idx_rows ⟨8 * ((i 0).val / 1024) + 7, ht⟩).2.2.2.2.1]
    show (8 * ((i 0).val / 1024) + 7) / 8 * 1024 ≤ (i 0).val ∧ (i 0).val < (8 * ((i 0).val / 1024) + 7) / 8 * 1024 + 1024
    omega
  | ⟨1, _⟩ =>
    show win0_10.index ⟨8 * ((i 0).val / 1024) + 7, ht⟩ 1 * 512 ≤ (i 1).val ∧ (i 1).val < win0_10.index ⟨8 * ((i 0).val / 1024) + 7, ht⟩ 1 * 512 + 512
    rw [(idx_rows ⟨8 * ((i 0).val / 1024) + 7, ht⟩).2.2.2.2.2]
    omega

/-- The result array after the run. -/
theorem final (c : Dev nD) : (dats m 0 c).arrAt 10 cfg0.N = Cert.Spec.out (argsOf m c) :=
  (dats m 0 c).arrAt_eq_of_cover 10 (Cert.Spec.out (argsOf m c)) (flushed_eq m c) cover

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v10) = Cert.Spec.out (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.KFinal

end
-- ==== Proof.RefTrunk.lean ====
/-
  The shared trunk of the reference program, read index by index, is the specification's trunk.

  Each stage of the program is read at a coordinate pair (r, a) through the chain of its operations: a matrix product is
  the sum over the contracted coordinate, a bias is broadcast along the rows, the clamp is a maximum with the zero word.
  The index maps that the layout operations introduce are identified with coordinate tuples, after which both sides are
  the same expression.
-/
import proofs.«167038_j19533511262661_1_alg».proof.Proof.RefReadP
import proofs.«167038_j19533511262661_1_alg».proof.Proof.Spec

noncomputable section

namespace Cert.RefSpec

open Cert.ReferenceIdeal Idealize.ShloMosaic Idealize.ShloMosaic.ValueIdx

/-- The left operand of a row-by-column product is read at (row, k). -/
theorem pair_l {n0 n1 n2 : Nat} (r : Fin n0) (a : Fin n1) (k : Fin n2)
    (f : (⟨2, ![n0, n1]⟩ : Shape).Idx → Fin n2 → (⟨2, ![n0, n2]⟩ : Shape).Idx)
    (h0 : ∀ i k, (f i k 0).val = (i 0).val) (h1 : ∀ i k, (f i k 1).val = k.val) :
    f (ix2 r a) k = ix2 r k := by
  funext d
  match d with
  | ⟨0, _⟩ => exact Fin.ext (h0 _ _)
  | ⟨1, _⟩ => exact Fin.ext (h1 _ _)

/-- The right operand of a row-by-column product is read at (k, column). -/
theorem pair_r {n0 n1 n2 : Nat} (r : Fin n0) (a : Fin n1) (k : Fin n2)
    (f : (⟨2, ![n0, n1]⟩ : Shape).Idx → Fin n2 → (⟨2, ![n2, n1]⟩ : Shape).Idx)
    (h0 : ∀ i k, (f i k 0).val = k.val) (h1 : ∀ i k, (f i k 1).val = (i 1).val) :
    f (ix2 r a) k = ix2 k a := by
  funext d
  match d with
  | ⟨0, _⟩ => exact Fin.ext (h0 _ _)
  | ⟨1, _⟩ => exact Fin.ext (h1 _ _)

/-- First trunk layer. -/
theorem hid_eq (A : Spec.Args) (r : Fin 16384) (a : Fin 1024) :
    ReadP.val_main_v4 (F := Ideal) A.x A.W1 A.b1 (ix2 r a) = Spec.hid A r a := by
  rw [ReadP.val_main_v4_apply, ReadP.val_main_v3_apply, ReadP.val_main_v0_apply, ReadP.val_main_v2_apply,
    ReadP.val_main_v1_apply, ReadP.val_main_call0_v0_apply, ReadP.val_main_call0_cst_apply]
  unfold Spec.hid
  have el : ∀ k : Fin 512, ReadP.lidx_main_v0 (ix2 r a) k = ix2 r k := fun k =>
    pair_l r a k ReadP.lidx_main_v0 (fun _ _ => rfl) (fun _ _ => rfl)
  have er : ∀ k : Fin 512, ReadP.ridx_main_v0 (ix2 r a) k = ix2 k a := fun k =>
    pair_r r a k ReadP.ridx_main_v0 (fun _ _ => rfl) (fun _ _ => rfl)
  have eb : ReadP.idx_main_v1 (ReadP.idx_main_v2 (ix2 r a)) = ix1 a := by
    funext d; match d with | ⟨0, _⟩ => rfl
  rw [eb]
  simp only [el, er]
  rfl

/-- Second trunk layer. -/
theorem enc_eq (A : Spec.Args) (r : Fin 16384) (b : Fin 256) :
    ReadP.val_main_v9 (F := Ideal) A.x A.W1 A.b1 A.W2 A.b2 (ix2 r b) = Spec.enc A r b := by
  rw [ReadP.val_main_v9_apply, ReadP.val_main_v8_apply, ReadP.val_main_v5_apply, ReadP.val_main_v7_apply,
    ReadP.val_main_v6_apply, ReadP.val_main_call1_v0_apply, ReadP.val_main_call1_cst_apply]
  unfold Spec.enc
  have el : ∀ k : Fin 1024, ReadP.lidx_main_v5 (ix2 r b) k = ix2 r k := fun k =>
    pair_l r b k ReadP.lidx_main_v5 (fun _ _ => rfl) (fun _ _ => rfl)
  have er : ∀ k : Fin 1024, ReadP.ridx_main_v5 (ix2 r b) k = ix2 k b := fun k =>
    pair_r r b k ReadP.ridx_main_v5 (fun _ _ => rfl) (fun _ _ => rfl)
  have eb : ReadP.idx_main_v6 (ReadP.idx_main_v7 (ix2 r b)) = ix1 b := by
    funext d; match d with | ⟨0, _⟩ => rfl
  rw [eb]
  simp only [el, er, hid_eq]
  rfl

/-- The routing mask: the comparison of row r's id with the column number, read as an unsigned integer. -/
theorem gate_eq (A : Spec.Args) (r : Fin 16384) (e : Fin 8) :
    ReadP.val_main_v10 (F := Ideal) A.ids (ix2 r e) = Spec.gate A e r := by
  rw [ReadP.val_main_v10_apply, ReadP.val_main_call2_v4_apply, ReadP.val_main_call2_v2_apply,
    ReadP.val_main_call2_v0_apply, ReadP.val_main_call2_v3_apply, ReadP.val_main_call2_v1_apply]
  unfold Spec.gate
  have ei : ReadP.idx_main_call2_v0 (ReadP.idx_main_call2_v2 (ix2 r e)) = ix1 r := by
    funext d; match d with | ⟨0, _⟩ => rfl
  rw [ei]

end Cert.RefSpec

end
-- ==== Proof.RefExpertsA.lean ====
/-
  Experts 0, 1 of the reference program, read index by index, are the specification's experts.

  An expert's block slices its slab out of each stacked parameter array, reshapes away the unit axis, and then repeats
  the shape of a trunk layer; the slice and the reshape together read the stacked array at (expert, ·, ·), the reshape's
  row-major arithmetic cancelling. The routing column is a slice of the mask broadcast along the result's columns.
-/
import proofs.«167038_j19533511262661_1_alg».proof.Proof.RefTrunk

noncomputable section

namespace Cert.RefSpec

open Cert.ReferenceIdeal Idealize.ShloMosaic Idealize.ShloMosaic.ValueIdx

/-! ### Expert 0 -/

/-- Expert 0's first weight matrix is slab 0 of W3: the slice keeps the slab, the reshape drops the unit axis. -/
theorem W3s_0 (x6 : (⟨S8x256x1024, .f32⟩ : BufTy).Contents (Elt Ideal)) (b : Fin 256) (a : Fin 1024) :
    ReadP.val_main_v13 (F := Ideal) x6 (ix2 b a) = x6 (ix3 (⟨0, by decide⟩ : Fin 8) b a) := by
  rw [ReadP.val_main_v13_apply, ReadP.val_main_v12_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 0's first bias, broadcast along the rows, is row 0 of b3. -/
theorem b3s_0 (x7 : (⟨S8x1024, .f32⟩ : BufTy).Contents (Elt Ideal)) (r : Fin 16384) (a : Fin 1024) :
    ReadP.val_main_v18 (F := Ideal) x7 (ix2 r a) = x7 (ix2 (⟨0, by decide⟩ : Fin 8) a) := by
  rw [ReadP.val_main_v18_apply, ReadP.val_main_v17_apply, ReadP.val_main_v16_apply, ReadP.val_main_v15_apply]
  refine congrArg x7 (funext fun d => ?_)
  have ha := a.isLt
  match d with
  | ⟨0, _⟩ => rfl
  | ⟨1, _⟩ => exact Fin.ext (by show a.val % 1024 = a.val; omega)

/-- Expert 0's second weight matrix is slab 0 of W4. -/
theorem W4s_0 (x8 : (⟨S8x1024x512, .f32⟩ : BufTy).Contents (Elt Ideal)) (a : Fin 1024) (j : Fin 512) :
    ReadP.val_main_v22 (F := Ideal) x8 (ix2 a j) = x8 (ix3 (⟨0, by decide⟩ : Fin 8) a j) := by
  rw [ReadP.val_main_v22_apply, ReadP.val_main_v21_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 0's second bias, broadcast along the rows, is row 0 of b4. -/
theorem b4s_0 (x9 : (⟨S8x512, .f32⟩ : BufTy).Contents (Elt Ideal)) (r : Fin 16384) (j : Fin 512) :
    ReadP.val_main_v27 (F := Ideal) x9 (ix2 r j) = x9 (ix2 (⟨0, by decide⟩ : Fin 8) j) := by
  rw [ReadP.val_main_v27_apply, ReadP.val_main_v26_apply, ReadP.val_main_v25_apply, ReadP.val_main_v24_apply]
  refine congrArg x9 (funext fun d => ?_)
  have hj := j.isLt
  match d with
  | ⟨0, _⟩ => rfl
  | ⟨1, _⟩ => exact Fin.ext (by show j.val % 512 = j.val; omega)

/-- Column 0 of the routing mask, broadcast along the columns of the result. -/
theorem gs_0 (x1 : (⟨S16384, .i32⟩ : BufTy).Contents (Elt Ideal)) (r : Fin 16384) (j : Fin 512) :
    ReadP.val_main_v30 (F := Ideal) x1 (ix2 r j) = ReadP.val_main_v10 (F := Ideal) x1 (ix2 r (⟨0, by decide⟩ : Fin 8)) := by
  rw [ReadP.val_main_v30_apply, ReadP.val_main_v29_apply]
  refine congrArg (ReadP.val_main_v10 (F := Ideal) x1) (funext fun d => ?_)
  match d with
  | ⟨0, _⟩ => rfl
  | ⟨1, _⟩ => rfl

/-- Expert 0's hidden layer. -/
theorem exh_eq_0 (A : Spec.Args) (r : Fin 16384) (a : Fin 1024) :
    ReadP.val_main_v20 (F := Ideal) A.x A.W1 A.b1 A.W2 A.b2 A.W3 A.b3 (ix2 r a) = Spec.exh A (⟨0, by decide⟩ : Fin 8) r a := by
  rw [ReadP.val_main_v20_apply, ReadP.val_main_v19_apply, ReadP.val_main_v14_apply, b3s_0,
    ReadP.val_main_call3_v0_apply, ReadP.val_main_call3_cst_apply]
  unfold Spec.exh
  have el : ∀ k : Fin 256, ReadP.lidx_main_v14 (ix2 r a) k = ix2 r k := fun k =>
    pair_l r a k ReadP.lidx_main_v14 (fun _ _ => rfl) (fun _ _ => rfl)
  have er : ∀ k : Fin 256, ReadP.ridx_main_v14 (ix2 r a) k = ix2 k a := fun k =>
    pair_r r a k ReadP.ridx_main_v14 (fun _ _ => rfl) (fun _ _ => rfl)
  simp only [el, er, enc_eq, W3s_0]
  rfl

/-- Expert 0's output. -/
theorem exy_eq_0 (A : Spec.Args) (r : Fin 16384) (j : Fin 512) :
    ReadP.val_main_v28 (F := Ideal) A.x A.W1 A.b1 A.W2 A.b2 A.W3 A.b3 A.W4 A.b4 (ix2 r j) = Spec.exy A (⟨0, by decide⟩ : Fin 8) r j := by
  rw [ReadP.val_main_v28_apply, ReadP.val_main_v23_apply, b4s_0]
  unfold Spec.exy
  have el : ∀ k : Fin 1024, ReadP.lidx_main_v23 (ix2 r j) k = ix2 r k := fun k =>
    pair_l r j k ReadP.lidx_main_v23 (fun _ _ => rfl) (fun _ _ => rfl)
  have er : ∀ k : Fin 1024, ReadP.ridx_main_v23 (ix2 r j) k = ix2 k j := fun k =>
    pair_r r j k ReadP.ridx_main_v23 (fun _ _ => rfl) (fun _ _ => rfl)
  simp only [el, er, exh_eq_0, W4s_0]
  rfl

/-- Expert 0's gated contribution to the result. -/
theorem term_eq_0 (A : Spec.Args) (r : Fin 16384) (j : Fin 512) :
    ReadP.val_main_v31 (F := Ideal) A.x A.ids A.W1 A.b1 A.W2 A.b2 A.W3 A.b3 A.W4 A.b4 (ix2 r j) = Spec.term A r j 0 := by
  rw [ReadP.val_main_v31_apply, exy_eq_0, gs_0, gate_eq, Spec.term_lt A r j 0 (by decide)]
  rfl

/-! ### Expert 1 -/

/-- Expert 1's first weight matrix is slab 1 of W3: the slice keeps the slab, the reshape drops the unit axis. -/
theorem W3s_1 (x6 : (⟨S8x256x1024, .f32⟩ : BufTy).Contents (Elt Ideal)) (b : Fin 256) (a : Fin 1024) :
    ReadP.val_main_v34 (F := Ideal) x6 (ix2 b a) = x6 (ix3 (⟨1, by decide⟩ : Fin 8) b a) := by
  rw [ReadP.val_main_v34_apply, ReadP.val_main_v33_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 1's first bias, broadcast along the rows, is row 1 of b3. -/
theorem b3s_1 (x7 : (⟨S8x1024, .f32⟩ : BufTy).Contents (Elt Ideal)) (r : Fin 16384) (a : Fin 1024) :
    ReadP.val_main_v39 (F := Ideal) x7 (ix2 r a) = x7 (ix2 (⟨1, by decide⟩ : Fin 8) a) := by
  rw [ReadP.val_main_v39_apply, ReadP.val_main_v38_apply, ReadP.val_main_v37_apply, ReadP.val_main_v36_apply]
  refine congrArg x7 (funext fun d => ?_)
  have ha := a.isLt
  match d with
  | ⟨0, _⟩ => rfl
  | ⟨1, _⟩ => exact Fin.ext (by show a.val % 1024 = a.val; omega)

/-- Expert 1's second weight matrix is slab 1 of W4. -/
theorem W4s_1 (x8 : (⟨S8x1024x512, .f32⟩ : BufTy).Contents (Elt Ideal)) (a : Fin 1024) (j : Fin 512) :
    ReadP.val_main_v43 (F := Ideal) x8 (ix2 a j) = x8 (ix3 (⟨1, by decide⟩ : Fin 8) a j) := by
  rw [ReadP.val_main_v43_apply, ReadP.val_main_v42_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 1's second bias, broadcast along the rows, is row 1 of b4. -/
theorem b4s_1 (x9 : (⟨S8x512, .f32⟩ : BufTy).Contents (Elt Ideal)) (r : Fin 16384) (j : Fin 512) :
    ReadP.val_main_v48 (F := Ideal) x9 (ix2 r j) = x9 (ix2 (⟨1, by decide⟩ : Fin 8) j) := by
  rw [ReadP.val_main_v48_apply, ReadP.val_main_v47_apply, ReadP.val_main_v46_apply, ReadP.val_main_v45_apply]
  refine congrArg x9 (funext fun d => ?_)
  have hj := j.isLt
  match d with
  | ⟨0, _⟩ => rfl
  | ⟨1, _⟩ => exact Fin.ext (by show j.val % 512 = j.val; omega)

/-- Column 1 of the routing mask, broadcast along the columns of the result. -/
theorem gs_1 (x1 : (⟨S16384, .i32⟩ : BufTy).Contents (Elt Ideal)) (r : Fin 16384) (j : Fin 512) :
    ReadP.val_main_v51 (F := Ideal) x1 (ix2 r j) = ReadP.val_main_v10 (F := Ideal) x1 (ix2 r (⟨1, by decide⟩ : Fin 8)) := by
  rw [ReadP.val_main_v51_apply, ReadP.val_main_v50_apply]
  refine congrArg (ReadP.val_main_v10 (F := Ideal) x1) (funext fun d => ?_)
  match d with
  | ⟨0, _⟩ => rfl
  | ⟨1, _⟩ => rfl

/-- Expert 1's hidden layer. -/
theorem exh_eq_1 (A : Spec.Args) (r : Fin 16384) (a : Fin 1024) :
    ReadP.val_main_v41 (F := Ideal) A.x A.W1 A.b1 A.W2 A.b2 A.W3 A.b3 (ix2 r a) = Spec.exh A (⟨1, by decide⟩ : Fin 8) r a := by
  rw [ReadP.val_main_v41_apply, ReadP.val_main_v40_apply, ReadP.val_main_v35_apply, b3s_1,
    ReadP.val_main_call4_v0_apply, ReadP.val_main_call4_cst_apply]
  unfold Spec.exh
  have el : ∀ k : Fin 256, ReadP.lidx_main_v35 (ix2 r a) k = ix2 r k := fun k =>
    pair_l r a k ReadP.lidx_main_v35 (fun _ _ => rfl) (fun _ _ => rfl)
  have er : ∀ k : Fin 256, ReadP.ridx_main_v35 (ix2 r a) k = ix2 k a := fun k =>
    pair_r r a k ReadP.ridx_main_v35 (fun _ _ => rfl) (fun _ _ => rfl)
  simp only [el, er, enc_eq, W3s_1]
  rfl

/-- Expert 1's output. -/
theorem exy_eq_1 (A : Spec.Args) (r : Fin 16384) (j : Fin 512) :
    ReadP.val_main_v49 (F := Ideal) A.x A.W1 A.b1 A.W2 A.b2 A.W3 A.b3 A.W4 A.b4 (ix2 r j) = Spec.exy A (⟨1, by decide⟩ : Fin 8) r j := by
  rw [ReadP.val_main_v49_apply, ReadP.val_main_v44_apply, b4s_1]
  unfold Spec.exy
  have el : ∀ k : Fin 1024, ReadP.lidx_main_v44 (ix2 r j) k = ix2 r k := fun k =>
    pair_l r j k ReadP.lidx_main_v44 (fun _ _ => rfl) (fun _ _ => rfl)
  have er : ∀ k : Fin 1024, ReadP.ridx_main_v44 (ix2 r j) k = ix2 k j := fun k =>
    pair_r r j k ReadP.ridx_main_v44 (fun _ _ => rfl) (fun _ _ => rfl)
  simp only [el, er, exh_eq_1, W4s_1]
  rfl

/-- Expert 1's gated contribution to the result. -/
theorem term_eq_1 (A : Spec.Args) (r : Fin 16384) (j : Fin 512) :
    ReadP.val_main_v52 (F := Ideal) A.x A.ids A.W1 A.b1 A.W2 A.b2 A.W3 A.b3 A.W4 A.b4 (ix2 r j) = Spec.term A r j 1 := by
  rw [ReadP.val_main_v52_apply, exy_eq_1, gs_1, gate_eq, Spec.term_lt A r j 1 (by decide)]
  rfl

end Cert.RefSpec

end
-- ==== Proof.RefExpertsB.lean ====
/-
  Experts 2, 3 of the reference program, read index by index, are the specification's experts.

  An expert's block slices its slab out of each stacked parameter array, reshapes away the unit axis, and then repeats
  the shape of a trunk layer; the slice and the reshape together read the stacked array at (expert, ·, ·), the reshape's
  row-major arithmetic cancelling. The routing column is a slice of the mask broadcast along the result's columns.
-/
import proofs.«167038_j19533511262661_1_alg».proof.Proof.RefTrunk

noncomputable section

namespace Cert.RefSpec

open Cert.ReferenceIdeal Idealize.ShloMosaic Idealize.ShloMosaic.ValueIdx

/-! ### Expert 2 -/

/-- Expert 2's first weight matrix is slab 2 of W3: the slice keeps the slab, the reshape drops the unit axis. -/
theorem W3s_2 (x6 : (⟨S8x256x1024, .f32⟩ : BufTy).Contents (Elt Ideal)) (b : Fin 256) (a : Fin 1024) :
    ReadP.val_main_v55 (F := Ideal) x6 (ix2 b a) = x6 (ix3 (⟨2, by decide⟩ : Fin 8) b a) := by
  rw [ReadP.val_main_v55_apply, ReadP.val_main_v54_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 2's first bias, broadcast along the rows, is row 2 of b3. -/
theorem b3s_2 (x7 : (⟨S8x1024, .f32⟩ : BufTy).Contents (Elt Ideal)) (r : Fin 16384) (a : Fin 1024) :
    ReadP.val_main_v60 (F := Ideal) x7 (ix2 r a) = x7 (ix2 (⟨2, by decide⟩ : Fin 8) a) := by
  rw [ReadP.val_main_v60_apply, ReadP.val_main_v59_apply, ReadP.val_main_v58_apply, ReadP.val_main_v57_apply]
  refine congrArg x7 (funext fun d => ?_)
  have ha := a.isLt
  match d with
  | ⟨0, _⟩ => rfl
  | ⟨1, _⟩ => exact Fin.ext (by show a.val % 1024 = a.val; omega)

/-- Expert 2's second weight matrix is slab 2 of W4. -/
theorem W4s_2 (x8 : (⟨S8x1024x512, .f32⟩ : BufTy).Contents (Elt Ideal)) (a : Fin 1024) (j : Fin 512) :
    ReadP.val_main_v64 (F := Ideal) x8 (ix2 a j) = x8 (ix3 (⟨2, by decide⟩ : Fin 8) a j) := by
  rw [ReadP.val_main_v64_apply, ReadP.val_main_v63_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 2's second bias, broadcast along the rows, is row 2 of b4. -/
theorem b4s_2 (x9 : (⟨S8x512, .f32⟩ : BufTy).Contents (Elt Ideal)) (r : Fin 16384) (j : Fin 512) :
    ReadP.val_main_v69 (F := Ideal) x9 (ix2 r j) = x9 (ix2 (⟨2, by decide⟩ : Fin 8) j) := by
  rw [ReadP.val_main_v69_apply, ReadP.val_main_v68_apply, ReadP.val_main_v67_apply, ReadP.val_main_v66_apply]
  refine congrArg x9 (funext fun d => ?_)
  have hj := j.isLt
  match d with
  | ⟨0, _⟩ => rfl
  | ⟨1, _⟩ => exact Fin.ext (by show j.val % 512 = j.val; omega)

/-- Column 2 of the routing mask, broadcast along the columns of the result. -/
theorem gs_2 (x1 : (⟨S16384, .i32⟩ : BufTy).Contents (Elt Ideal)) (r : Fin 16384) (j : Fin 512) :
    ReadP.val_main_v72 (F := Ideal) x1 (ix2 r j) = ReadP.val_main_v10 (F := Ideal) x1 (ix2 r (⟨2, by decide⟩ : Fin 8)) := by
  rw [ReadP.val_main_v72_apply, ReadP.val_main_v71_apply]
  refine congrArg (ReadP.val_main_v10 (F := Ideal) x1) (funext fun d => ?_)
  match d with
  | ⟨0, _⟩ => rfl
  | ⟨1, _⟩ => rfl

/-- Expert 2's hidden layer. -/
theorem exh_eq_2 (A : Spec.Args) (r : Fin 16384) (a : Fin 1024) :
    ReadP.val_main_v62 (F := Ideal) A.x A.W1 A.b1 A.W2 A.b2 A.W3 A.b3 (ix2 r a) = Spec.exh A (⟨2, by decide⟩ : Fin 8) r a := by
  rw [ReadP.val_main_v62_apply, ReadP.val_main_v61_apply, ReadP.val_main_v56_apply, b3s_2,
    ReadP.val_main_call5_v0_apply, ReadP.val_main_call5_cst_apply]
  unfold Spec.exh
  have el : ∀ k : Fin 256, ReadP.lidx_main_v56 (ix2 r a) k = ix2 r k := fun k =>
    pair_l r a k ReadP.lidx_main_v56 (fun _ _ => rfl) (fun _ _ => rfl)
  have er : ∀ k : Fin 256, ReadP.ridx_main_v56 (ix2 r a) k = ix2 k a := fun k =>
    pair_r r a k ReadP.ridx_main_v56 (fun _ _ => rfl) (fun _ _ => rfl)
  simp only [el, er, enc_eq, W3s_2]
  rfl

/-- Expert 2's output. -/
theorem exy_eq_2 (A : Spec.Args) (r : Fin 16384) (j : Fin 512) :
    ReadP.val_main_v70 (F := Ideal) A.x A.W1 A.b1 A.W2 A.b2 A.W3 A.b3 A.W4 A.b4 (ix2 r j) = Spec.exy A (⟨2, by decide⟩ : Fin 8) r j := by
  rw [ReadP.val_main_v70_apply, ReadP.val_main_v65_apply, b4s_2]
  unfold Spec.exy
  have el : ∀ k : Fin 1024, ReadP.lidx_main_v65 (ix2 r j) k = ix2 r k := fun k =>
    pair_l r j k ReadP.lidx_main_v65 (fun _ _ => rfl) (fun _ _ => rfl)
  have er : ∀ k : Fin 1024, ReadP.ridx_main_v65 (ix2 r j) k = ix2 k j := fun k =>
    pair_r r j k ReadP.ridx_main_v65 (fun _ _ => rfl) (fun _ _ => rfl)
  simp only [el, er, exh_eq_2, W4s_2]
  rfl

/-- Expert 2's gated contribution to the result. -/
theorem term_eq_2 (A : Spec.Args) (r : Fin 16384) (j : Fin 512) :
    ReadP.val_main_v73 (F := Ideal) A.x A.ids A.W1 A.b1 A.W2 A.b2 A.W3 A.b3 A.W4 A.b4 (ix2 r j) = Spec.term A r j 2 := by
  rw [ReadP.val_main_v73_apply, exy_eq_2, gs_2, gate_eq, Spec.term_lt A r j 2 (by decide)]
  rfl

/-! ### Expert 3 -/

/-- Expert 3's first weight matrix is slab 3 of W3: the slice keeps the slab, the reshape drops the unit axis. -/
theorem W3s_3 (x6 : (⟨S8x256x1024, .f32⟩ : BufTy).Contents (Elt Ideal)) (b : Fin 256) (a : Fin 1024) :
    ReadP.val_main_v76 (F := Ideal) x6 (ix2 b a) = x6 (ix3 (⟨3, by decide⟩ : Fin 8) b a) := by
  rw [ReadP.val_main_v76_apply, ReadP.val_main_v75_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 3's first bias, broadcast along the rows, is row 3 of b3. -/
theorem b3s_3 (x7 : (⟨S8x1024, .f32⟩ : BufTy).Contents (Elt Ideal)) (r : Fin 16384) (a : Fin 1024) :
    ReadP.val_main_v81 (F := Ideal) x7 (ix2 r a) = x7 (ix2 (⟨3, by decide⟩ : Fin 8) a) := by
  rw [ReadP.val_main_v81_apply, ReadP.val_main_v80_apply, ReadP.val_main_v79_apply, ReadP.val_main_v78_apply]
  refine congrArg x7 (funext fun d => ?_)
  have ha := a.isLt
  match d with
  | ⟨0, _⟩ => rfl
  | ⟨1, _⟩ => exact Fin.ext (by show a.val % 1024 = a.val; omega)

/-- Expert 3's second weight matrix is slab 3 of W4. -/
theorem W4s_3 (x8 : (⟨S8x1024x512, .f32⟩ : BufTy).Contents (Elt Ideal)) (a : Fin 1024) (j : Fin 512) :
    ReadP.val_main_v85 (F := Ideal) x8 (ix2 a j) = x8 (ix3 (⟨3, by decide⟩ : Fin 8) a j) := by
  rw [ReadP.val_main_v85_apply, ReadP.val_main_v84_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 3's second bias, broadcast along the rows, is row 3 of b4. -/
theorem b4s_3 (x9 : (⟨S8x512, .f32⟩ : BufTy).Contents (Elt Ideal)) (r : Fin 16384) (j : Fin 512) :
    ReadP.val_main_v90 (F := Ideal) x9 (ix2 r j) = x9 (ix2 (⟨3, by decide⟩ : Fin 8) j) := by
  rw [ReadP.val_main_v90_apply, ReadP.val_main_v89_apply, ReadP.val_main_v88_apply, ReadP.val_main_v87_apply]
  refine congrArg x9 (funext fun d => ?_)
  have hj := j.isLt
  match d with
  | ⟨0, _⟩ => rfl
  | ⟨1, _⟩ => exact Fin.ext (by show j.val % 512 = j.val; omega)

/-- Column 3 of the routing mask, broadcast along the columns of the result. -/
theorem gs_3 (x1 : (⟨S16384, .i32⟩ : BufTy).Contents (Elt Ideal)) (r : Fin 16384) (j : Fin 512) :
    ReadP.val_main_v93 (F := Ideal) x1 (ix2 r j) = ReadP.val_main_v10 (F := Ideal) x1 (ix2 r (⟨3, by decide⟩ : Fin 8)) := by
  rw [ReadP.val_main_v93_apply, ReadP.val_main_v92_apply]
  refine congrArg (ReadP.val_main_v10 (F := Ideal) x1) (funext fun d => ?_)
  match d with
  | ⟨0, _⟩ => rfl
  | ⟨1, _⟩ => rfl

/-- Expert 3's hidden layer. -/
theorem exh_eq_3 (A : Spec.Args) (r : Fin 16384) (a : Fin 1024) :
    ReadP.val_main_v83 (F := Ideal) A.x A.W1 A.b1 A.W2 A.b2 A.W3 A.b3 (ix2 r a) = Spec.exh A (⟨3, by decide⟩ : Fin 8) r a := by
  rw [ReadP.val_main_v83_apply, ReadP.val_main_v82_apply, ReadP.val_main_v77_apply, b3s_3,
    ReadP.val_main_call6_v0_apply, ReadP.val_main_call6_cst_apply]
  unfold Spec.exh
  have el : ∀ k : Fin 256, ReadP.lidx_main_v77 (ix2 r a) k = ix2 r k := fun k =>
    pair_l r a k ReadP.lidx_main_v77 (fun _ _ => rfl) (fun _ _ => rfl)
  have er : ∀ k : Fin 256, ReadP.ridx_main_v77 (ix2 r a) k = ix2 k a := fun k =>
    pair_r r a k ReadP.ridx_main_v77 (fun _ _ => rfl) (fun _ _ => rfl)
  simp only [el, er, enc_eq, W3s_3]
  rfl

/-- Expert 3's output. -/
theorem exy_eq_3 (A : Spec.Args) (r : Fin 16384) (j : Fin 512) :
    ReadP.val_main_v91 (F := Ideal) A.x A.W1 A.b1 A.W2 A.b2 A.W3 A.b3 A.W4 A.b4 (ix2 r j) = Spec.exy A (⟨3, by decide⟩ : Fin 8) r j := by
  rw [ReadP.val_main_v91_apply, ReadP.val_main_v86_apply, b4s_3]
  unfold Spec.exy
  have el : ∀ k : Fin 1024, ReadP.lidx_main_v86 (ix2 r j) k = ix2 r k := fun k =>
    pair_l r j k ReadP.lidx_main_v86 (fun _ _ => rfl) (fun _ _ => rfl)
  have er : ∀ k : Fin 1024, ReadP.ridx_main_v86 (ix2 r j) k = ix2 k j := fun k =>
    pair_r r j k ReadP.ridx_main_v86 (fun _ _ => rfl) (fun _ _ => rfl)
  simp only [el, er, exh_eq_3, W4s_3]
  rfl

/-- Expert 3's gated contribution to the result. -/
theorem term_eq_3 (A : Spec.Args) (r : Fin 16384) (j : Fin 512) :
    ReadP.val_main_v94 (F := Ideal) A.x A.ids A.W1 A.b1 A.W2 A.b2 A.W3 A.b3 A.W4 A.b4 (ix2 r j) = Spec.term A r j 3 := by
  rw [ReadP.val_main_v94_apply, exy_eq_3, gs_3, gate_eq, Spec.term_lt A r j 3 (by decide)]
  rfl

end Cert.RefSpec

end
-- ==== Proof.RefExpertsC.lean ====
/-
  Experts 4, 5 of the reference program, read index by index, are the specification's experts.

  An expert's block slices its slab out of each stacked parameter array, reshapes away the unit axis, and then repeats
  the shape of a trunk layer; the slice and the reshape together read the stacked array at (expert, ·, ·), the reshape's
  row-major arithmetic cancelling. The routing column is a slice of the mask broadcast along the result's columns.
-/
import proofs.«167038_j19533511262661_1_alg».proof.Proof.RefTrunk

noncomputable section

namespace Cert.RefSpec

open Cert.ReferenceIdeal Idealize.ShloMosaic Idealize.ShloMosaic.ValueIdx

/-! ### Expert 4 -/

/-- Expert 4's first weight matrix is slab 4 of W3: the slice keeps the slab, the reshape drops the unit axis. -/
theorem W3s_4 (x6 : (⟨S8x256x1024, .f32⟩ : BufTy).Contents (Elt Ideal)) (b : Fin 256) (a : Fin 1024) :
    ReadP.val_main_v97 (F := Ideal) x6 (ix2 b a) = x6 (ix3 (⟨4, by decide⟩ : Fin 8) b a) := by
  rw [ReadP.val_main_v97_apply, ReadP.val_main_v96_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 4's first bias, broadcast along the rows, is row 4 of b3. -/
theorem b3s_4 (x7 : (⟨S8x1024, .f32⟩ : BufTy).Contents (Elt Ideal)) (r : Fin 16384) (a : Fin 1024) :
    ReadP.val_main_v102 (F := Ideal) x7 (ix2 r a) = x7 (ix2 (⟨4, by decide⟩ : Fin 8) a) := by
  rw [ReadP.val_main_v102_apply, ReadP.val_main_v101_apply, ReadP.val_main_v100_apply, ReadP.val_main_v99_apply]
  refine congrArg x7 (funext fun d => ?_)
  have ha := a.isLt
  match d with
  | ⟨0, _⟩ => rfl
  | ⟨1, _⟩ => exact Fin.ext (by show a.val % 1024 = a.val; omega)

/-- Expert 4's second weight matrix is slab 4 of W4. -/
theorem W4s_4 (x8 : (⟨S8x1024x512, .f32⟩ : BufTy).Contents (Elt Ideal)) (a : Fin 1024) (j : Fin 512) :
    ReadP.val_main_v106 (F := Ideal) x8 (ix2 a j) = x8 (ix3 (⟨4, by decide⟩ : Fin 8) a j) := by
  rw [ReadP.val_main_v106_apply, ReadP.val_main_v105_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 4's second bias, broadcast along the rows, is row 4 of b4. -/
theorem b4s_4 (x9 : (⟨S8x512, .f32⟩ : BufTy).Contents (Elt Ideal)) (r : Fin 16384) (j : Fin 512) :
    ReadP.val_main_v111 (F := Ideal) x9 (ix2 r j) = x9 (ix2 (⟨4, by decide⟩ : Fin 8) j) := by
  rw [ReadP.val_main_v111_apply, ReadP.val_main_v110_apply, ReadP.val_main_v109_apply, ReadP.val_main_v108_apply]
  refine congrArg x9 (funext fun d => ?_)
  have hj := j.isLt
  match d with
  | ⟨0, _⟩ => rfl
  | ⟨1, _⟩ => exact Fin.ext (by show j.val % 512 = j.val; omega)

/-- Column 4 of the routing mask, broadcast along the columns of the result. -/
theorem gs_4 (x1 : (⟨S16384, .i32⟩ : BufTy).Contents (Elt Ideal)) (r : Fin 16384) (j : Fin 512) :
    ReadP.val_main_v114 (F := Ideal) x1 (ix2 r j) = ReadP.val_main_v10 (F := Ideal) x1 (ix2 r (⟨4, by decide⟩ : Fin 8)) := by
  rw [ReadP.val_main_v114_apply, ReadP.val_main_v113_apply]
  refine congrArg (ReadP.val_main_v10 (F := Ideal) x1) (funext fun d => ?_)
  match d with
  | ⟨0, _⟩ => rfl
  | ⟨1, _⟩ => rfl

/-- Expert 4's hidden layer. -/
theorem exh_eq_4 (A : Spec.Args) (r : Fin 16384) (a : Fin 1024) :
    ReadP.val_main_v104 (F := Ideal) A.x A.W1 A.b1 A.W2 A.b2 A.W3 A.b3 (ix2 r a) = Spec.exh A (⟨4, by decide⟩ : Fin 8) r a := by
  rw [ReadP.val_main_v104_apply, ReadP.val_main_v103_apply, ReadP.val_main_v98_apply, b3s_4,
    ReadP.val_main_call7_v0_apply, ReadP.val_main_call7_cst_apply]
  unfold Spec.exh
  have el : ∀ k : Fin 256, ReadP.lidx_main_v98 (ix2 r a) k = ix2 r k := fun k =>
    pair_l r a k ReadP.lidx_main_v98 (fun _ _ => rfl) (fun _ _ => rfl)
  have er : ∀ k : Fin 256, ReadP.ridx_main_v98 (ix2 r a) k = ix2 k a := fun k =>
    pair_r r a k ReadP.ridx_main_v98 (fun _ _ => rfl) (fun _ _ => rfl)
  simp only [el, er, enc_eq, W3s_4]
  rfl

/-- Expert 4's output. -/
theorem exy_eq_4 (A : Spec.Args) (r : Fin 16384) (j : Fin 512) :
    ReadP.val_main_v112 (F := Ideal) A.x A.W1 A.b1 A.W2 A.b2 A.W3 A.b3 A.W4 A.b4 (ix2 r j) = Spec.exy A (⟨4, by decide⟩ : Fin 8) r j := by
  rw [ReadP.val_main_v112_apply, ReadP.val_main_v107_apply, b4s_4]
  unfold Spec.exy
  have el : ∀ k : Fin 1024, ReadP.lidx_main_v107 (ix2 r j) k = ix2 r k := fun k =>
    pair_l r j k ReadP.lidx_main_v107 (fun _ _ => rfl) (fun _ _ => rfl)
  have er : ∀ k : Fin 1024, ReadP.ridx_main_v107 (ix2 r j) k = ix2 k j := fun k =>
    pair_r r j k ReadP.ridx_main_v107 (fun _ _ => rfl) (fun _ _ => rfl)
  simp only [el, er, exh_eq_4, W4s_4]
  rfl

/-- Expert 4's gated contribution to the result. -/
theorem term_eq_4 (A : Spec.Args) (r : Fin 16384) (j : Fin 512) :
    ReadP.val_main_v115 (F := Ideal) A.x A.ids A.W1 A.b1 A.W2 A.b2 A.W3 A.b3 A.W4 A.b4 (ix2 r j) = Spec.term A r j 4 := by
  rw [ReadP.val_main_v115_apply, exy_eq_4, gs_4, gate_eq, Spec.term_lt A r j 4 (by decide)]
  rfl

/-! ### Expert 5 -/

/-- Expert 5's first weight matrix is slab 5 of W3: the slice keeps the slab, the reshape drops the unit axis. -/
theorem W3s_5 (x6 : (⟨S8x256x1024, .f32⟩ : BufTy).Contents (Elt Ideal)) (b : Fin 256) (a : Fin 1024) :
    ReadP.val_main_v118 (F := Ideal) x6 (ix2 b a) = x6 (ix3 (⟨5, by decide⟩ : Fin 8) b a) := by
  rw [ReadP.val_main_v118_apply, ReadP.val_main_v117_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 5's first bias, broadcast along the rows, is row 5 of b3. -/
theorem b3s_5 (x7 : (⟨S8x1024, .f32⟩ : BufTy).Contents (Elt Ideal)) (r : Fin 16384) (a : Fin 1024) :
    ReadP.val_main_v123 (F := Ideal) x7 (ix2 r a) = x7 (ix2 (⟨5, by decide⟩ : Fin 8) a) := by
  rw [ReadP.val_main_v123_apply, ReadP.val_main_v122_apply, ReadP.val_main_v121_apply, ReadP.val_main_v120_apply]
  refine congrArg x7 (funext fun d => ?_)
  have ha := a.isLt
  match d with
  | ⟨0, _⟩ => rfl
  | ⟨1, _⟩ => exact Fin.ext (by show a.val % 1024 = a.val; omega)

/-- Expert 5's second weight matrix is slab 5 of W4. -/
theorem W4s_5 (x8 : (⟨S8x1024x512, .f32⟩ : BufTy).Contents (Elt Ideal)) (a : Fin 1024) (j : Fin 512) :
    ReadP.val_main_v127 (F := Ideal) x8 (ix2 a j) = x8 (ix3 (⟨5, by decide⟩ : Fin 8) a j) := by
  rw [ReadP.val_main_v127_apply, ReadP.val_main_v126_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 5's second bias, broadcast along the rows, is row 5 of b4. -/
theorem b4s_5 (x9 : (⟨S8x512, .f32⟩ : BufTy).Contents (Elt Ideal)) (r : Fin 16384) (j : Fin 512) :
    ReadP.val_main_v132 (F := Ideal) x9 (ix2 r j) = x9 (ix2 (⟨5, by decide⟩ : Fin 8) j) := by
  rw [ReadP.val_main_v132_apply, ReadP.val_main_v131_apply, ReadP.val_main_v130_apply, ReadP.val_main_v129_apply]
  refine congrArg x9 (funext fun d => ?_)
  have hj := j.isLt
  match d with
  | ⟨0, _⟩ => rfl
  | ⟨1, _⟩ => exact Fin.ext (by show j.val % 512 = j.val; omega)

/-- Column 5 of the routing mask, broadcast along the columns of the result. -/
theorem gs_5 (x1 : (⟨S16384, .i32⟩ : BufTy).Contents (Elt Ideal)) (r : Fin 16384) (j : Fin 512) :
    ReadP.val_main_v135 (F := Ideal) x1 (ix2 r j) = ReadP.val_main_v10 (F := Ideal) x1 (ix2 r (⟨5, by decide⟩ : Fin 8)) := by
  rw [ReadP.val_main_v135_apply, ReadP.val_main_v134_apply]
  refine congrArg (ReadP.val_main_v10 (F := Ideal) x1) (funext fun d => ?_)
  match d with
  | ⟨0, _⟩ => rfl
  | ⟨1, _⟩ => rfl

/-- Expert 5's hidden layer. -/
theorem exh_eq_5 (A : Spec.Args) (r : Fin 16384) (a : Fin 1024) :
    ReadP.val_main_v125 (F := Ideal) A.x A.W1 A.b1 A.W2 A.b2 A.W3 A.b3 (ix2 r a) = Spec.exh A (⟨5, by decide⟩ : Fin 8) r a := by
  rw [ReadP.val_main_v125_apply, ReadP.val_main_v124_apply, ReadP.val_main_v119_apply, b3s_5,
    ReadP.val_main_call8_v0_apply, ReadP.val_main_call8_cst_apply]
  unfold Spec.exh
  have el : ∀ k : Fin 256, ReadP.lidx_main_v119 (ix2 r a) k = ix2 r k := fun k =>
    pair_l r a k ReadP.lidx_main_v119 (fun _ _ => rfl) (fun _ _ => rfl)
  have er : ∀ k : Fin 256, ReadP.ridx_main_v119 (ix2 r a) k = ix2 k a := fun k =>
    pair_r r a k ReadP.ridx_main_v119 (fun _ _ => rfl) (fun _ _ => rfl)
  simp only [el, er, enc_eq, W3s_5]
  rfl

/-- Expert 5's output. -/
theorem exy_eq_5 (A : Spec.Args) (r : Fin 16384) (j : Fin 512) :
    ReadP.val_main_v133 (F := Ideal) A.x A.W1 A.b1 A.W2 A.b2 A.W3 A.b3 A.W4 A.b4 (ix2 r j) = Spec.exy A (⟨5, by decide⟩ : Fin 8) r j := by
  rw [ReadP.val_main_v133_apply, ReadP.val_main_v128_apply, b4s_5]
  unfold Spec.exy
  have el : ∀ k : Fin 1024, ReadP.lidx_main_v128 (ix2 r j) k = ix2 r k := fun k =>
    pair_l r j k ReadP.lidx_main_v128 (fun _ _ => rfl) (fun _ _ => rfl)
  have er : ∀ k : Fin 1024, ReadP.ridx_main_v128 (ix2 r j) k = ix2 k j := fun k =>
    pair_r r j k ReadP.ridx_main_v128 (fun _ _ => rfl) (fun _ _ => rfl)
  simp only [el, er, exh_eq_5, W4s_5]
  rfl

/-- Expert 5's gated contribution to the result. -/
theorem term_eq_5 (A : Spec.Args) (r : Fin 16384) (j : Fin 512) :
    ReadP.val_main_v136 (F := Ideal) A.x A.ids A.W1 A.b1 A.W2 A.b2 A.W3 A.b3 A.W4 A.b4 (ix2 r j) = Spec.term A r j 5 := by
  rw [ReadP.val_main_v136_apply, exy_eq_5, gs_5, gate_eq, Spec.term_lt A r j 5 (by decide)]
  rfl

end Cert.RefSpec

end
-- ==== Proof.RefExpertsD.lean ====
/-
  Experts 6, 7 of the reference program, read index by index, are the specification's experts.

  An expert's block slices its slab out of each stacked parameter array, reshapes away the unit axis, and then repeats
  the shape of a trunk layer; the slice and the reshape together read the stacked array at (expert, ·, ·), the reshape's
  row-major arithmetic cancelling. The routing column is a slice of the mask broadcast along the result's columns.
-/
import proofs.«167038_j19533511262661_1_alg».proof.Proof.RefTrunk

noncomputable section

namespace Cert.RefSpec

open Cert.ReferenceIdeal Idealize.ShloMosaic Idealize.ShloMosaic.ValueIdx

/-! ### Expert 6 -/

/-- Expert 6's first weight matrix is slab 6 of W3: the slice keeps the slab, the reshape drops the unit axis. -/
theorem W3s_6 (x6 : (⟨S8x256x1024, .f32⟩ : BufTy).Contents (Elt Ideal)) (b : Fin 256) (a : Fin 1024) :
    ReadP.val_main_v139 (F := Ideal) x6 (ix2 b a) = x6 (ix3 (⟨6, by decide⟩ : Fin 8) b a) := by
  rw [ReadP.val_main_v139_apply, ReadP.val_main_v138_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 6's first bias, broadcast along the rows, is row 6 of b3. -/
theorem b3s_6 (x7 : (⟨S8x1024, .f32⟩ : BufTy).Contents (Elt Ideal)) (r : Fin 16384) (a : Fin 1024) :
    ReadP.val_main_v144 (F := Ideal) x7 (ix2 r a) = x7 (ix2 (⟨6, by decide⟩ : Fin 8) a) := by
  rw [ReadP.val_main_v144_apply, ReadP.val_main_v143_apply, ReadP.val_main_v142_apply, ReadP.val_main_v141_apply]
  refine congrArg x7 (funext fun d => ?_)
  have ha := a.isLt
  match d with
  | ⟨0, _⟩ => rfl
  | ⟨1, _⟩ => exact Fin.ext (by show a.val % 1024 = a.val; omega)

/-- Expert 6's second weight matrix is slab 6 of W4. -/
theorem W4s_6 (x8 : (⟨S8x1024x512, .f32⟩ : BufTy).Contents (Elt Ideal)) (a : Fin 1024) (j : Fin 512) :
    ReadP.val_main_v148 (F := Ideal) x8 (ix2 a j) = x8 (ix3 (⟨6, by decide⟩ : Fin 8) a j) := by
  rw [ReadP.val_main_v148_apply, ReadP.val_main_v147_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 6's second bias, broadcast along the rows, is row 6 of b4. -/
theorem b4s_6 (x9 : (⟨S8x512, .f32⟩ : BufTy).Contents (Elt Ideal)) (r : Fin 16384) (j : Fin 512) :
    ReadP.val_main_v153 (F := Ideal) x9 (ix2 r j) = x9 (ix2 (⟨6, by decide⟩ : Fin 8) j) := by
  rw [ReadP.val_main_v153_apply, ReadP.val_main_v152_apply, ReadP.val_main_v151_apply, ReadP.val_main_v150_apply]
  refine congrArg x9 (funext fun d => ?_)
  have hj := j.isLt
  match d with
  | ⟨0, _⟩ => rfl
  | ⟨1, _⟩ => exact Fin.ext (by show j.val % 512 = j.val; omega)

/-- Column 6 of the routing mask, broadcast along the columns of the result. -/
theorem gs_6 (x1 : (⟨S16384, .i32⟩ : BufTy).Contents (Elt Ideal)) (r : Fin 16384) (j : Fin 512) :
    ReadP.val_main_v156 (F := Ideal) x1 (ix2 r j) = ReadP.val_main_v10 (F := Ideal) x1 (ix2 r (⟨6, by decide⟩ : Fin 8)) := by
  rw [ReadP.val_main_v156_apply, ReadP.val_main_v155_apply]
  refine congrArg (ReadP.val_main_v10 (F := Ideal) x1) (funext fun d => ?_)
  match d with
  | ⟨0, _⟩ => rfl
  | ⟨1, _⟩ => rfl

/-- Expert 6's hidden layer. -/
theorem exh_eq_6 (A : Spec.Args) (r : Fin 16384) (a : Fin 1024) :
    ReadP.val_main_v146 (F := Ideal) A.x A.W1 A.b1 A.W2 A.b2 A.W3 A.b3 (ix2 r a) = Spec.exh A (⟨6, by decide⟩ : Fin 8) r a := by
  rw [ReadP.val_main_v146_apply, ReadP.val_main_v145_apply, ReadP.val_main_v140_apply, b3s_6,
    ReadP.val_main_call9_v0_apply, ReadP.val_main_call9_cst_apply]
  unfold Spec.exh
  have el : ∀ k : Fin 256, ReadP.lidx_main_v140 (ix2 r a) k = ix2 r k := fun k =>
    pair_l r a k ReadP.lidx_main_v140 (fun _ _ => rfl) (fun _ _ => rfl)
  have er : ∀ k : Fin 256, ReadP.ridx_main_v140 (ix2 r a) k = ix2 k a := fun k =>
    pair_r r a k ReadP.ridx_main_v140 (fun _ _ => rfl) (fun _ _ => rfl)
  simp only [el, er, enc_eq, W3s_6]
  rfl

/-- Expert 6's output. -/
theorem exy_eq_6 (A : Spec.Args) (r : Fin 16384) (j : Fin 512) :
    ReadP.val_main_v154 (F := Ideal) A.x A.W1 A.b1 A.W2 A.b2 A.W3 A.b3 A.W4 A.b4 (ix2 r j) = Spec.exy A (⟨6, by decide⟩ : Fin 8) r j := by
  rw [ReadP.val_main_v154_apply, ReadP.val_main_v149_apply, b4s_6]
  unfold Spec.exy
  have el : ∀ k : Fin 1024, ReadP.lidx_main_v149 (ix2 r j) k = ix2 r k := fun k =>
    pair_l r j k ReadP.lidx_main_v149 (fun _ _ => rfl) (fun _ _ => rfl)
  have er : ∀ k : Fin 1024, ReadP.ridx_main_v149 (ix2 r j) k = ix2 k j := fun k =>
    pair_r r j k ReadP.ridx_main_v149 (fun _ _ => rfl) (fun _ _ => rfl)
  simp only [el, er, exh_eq_6, W4s_6]
  rfl

/-- Expert 6's gated contribution to the result. -/
theorem term_eq_6 (A : Spec.Args) (r : Fin 16384) (j : Fin 512) :
    ReadP.val_main_v157 (F := Ideal) A.x A.ids A.W1 A.b1 A.W2 A.b2 A.W3 A.b3 A.W4 A.b4 (ix2 r j) = Spec.term A r j 6 := by
  rw [ReadP.val_main_v157_apply, exy_eq_6, gs_6, gate_eq, Spec.term_lt A r j 6 (by decide)]
  rfl

/-! ### Expert 7 -/

/-- Expert 7's first weight matrix is slab 7 of W3: the slice keeps the slab, the reshape drops the unit axis. -/
theorem W3s_7 (x6 : (⟨S8x256x1024, .f32⟩ : BufTy).Contents (Elt Ideal)) (b : Fin 256) (a : Fin 1024) :
    ReadP.val_main_v160 (F := Ideal) x6 (ix2 b a) = x6 (ix3 (⟨7, by decide⟩ : Fin 8) b a) := by
  rw [ReadP.val_main_v160_apply, ReadP.val_main_v159_apply]
  refine congrArg x6 (funext fun d => ?_)
  have hb := b.isLt
  have ha := a.isLt
  match d with
  | ⟨0, _⟩ => rfl
  | ⟨1, _⟩ => exact Fin.ext (by show (b.val * 1024 + a.val) / 1024 % 256 = b.val; omega)
  | ⟨2, _⟩ => exact Fin.ext (by show (b.val * 1024 + a.val) % 1024 = a.val; omega)

/-- Expert 7's first bias, broadcast along the rows, is row 7 of b3. -/
theorem b3s_7 (x7 : (⟨S8x1024, .f32⟩ : BufTy).Contents (Elt Ideal)) (r : Fin 16384) (a : Fin 1024) :
    ReadP.val_main_v165 (F := Ideal) x7 (ix2 r a) = x7 (ix2 (⟨7, by decide⟩ : Fin 8) a) := by
  rw [ReadP.val_main_v165_apply, ReadP.val_main_v164_apply, ReadP.val_main_v163_apply, ReadP.val_main_v162_apply]
  refine congrArg x7 (funext fun d => ?_)
  have ha := a.isLt
  match d with
  | ⟨0, _⟩ => rfl
  | ⟨1, _⟩ => exact Fin.ext (by show a.val % 1024 = a.val; omega)

/-- Expert 7's second weight matrix is slab 7 of W4. -/
theorem W4s_7 (x8 : (⟨S8x1024x512, .f32⟩ : BufTy).Contents (Elt Ideal)) (a : Fin 1024) (j : Fin 512) :
    ReadP.val_main_v169 (F := Ideal) x8 (ix2 a j) = x8 (ix3 (⟨7, by decide⟩ : Fin 8) a j) := by
  rw [ReadP.val_main_v169_apply, ReadP.val_main_v168_apply]
  refine congrArg x8 (funext fun d => ?_)
  have ha := a.isLt
  have hj := j.isLt
  match d with
  | ⟨0, _⟩ => rfl
  | ⟨1, _⟩ => exact Fin.ext (by show (a.val * 512 + j.val) / 512 % 1024 = a.val; omega)
  | ⟨2, _⟩ => exact Fin.ext (by show (a.val * 512 + j.val) % 512 = j.val; omega)

/-- Expert 7's second bias, broadcast along the rows, is row 7 of b4. -/
theorem b4s_7 (x9 : (⟨S8x512, .f32⟩ : BufTy).Contents (Elt Ideal)) (r : Fin 16384) (j : Fin 512) :
    ReadP.val_main_v174 (F := Ideal) x9 (ix2 r j) = x9 (ix2 (⟨7, by decide⟩ : Fin 8) j) := by
  rw [ReadP.val_main_v174_apply, ReadP.val_main_v173_apply, ReadP.val_main_v172_apply, ReadP.val_main_v171_apply]
  refine congrArg x9 (funext fun d => ?_)
  have hj := j.isLt
  match d with
  | ⟨0, _⟩ => rfl
  | ⟨1, _⟩ => exact Fin.ext (by show j.val % 512 = j.val; omega)

/-- Column 7 of the routing mask, broadcast along the columns of the result. -/
theorem gs_7 (x1 : (⟨S16384, .i32⟩ : BufTy).Contents (Elt Ideal)) (r : Fin 16384) (j : Fin 512) :
    ReadP.val_main_v177 (F := Ideal) x1 (ix2 r j) = ReadP.val_main_v10 (F := Ideal) x1 (ix2 r (⟨7, by decide⟩ : Fin 8)) := by
  rw [ReadP.val_main_v177_apply, ReadP.val_main_v176_apply]
  refine congrArg (ReadP.val_main_v10 (F := Ideal) x1) (funext fun d => ?_)
  match d with
  | ⟨0, _⟩ => rfl
  | ⟨1, _⟩ => rfl

/-- Expert 7's hidden layer. -/
theorem exh_eq_7 (A : Spec.Args) (r : Fin 16384) (a : Fin 1024) :
    ReadP.val_main_v167 (F := Ideal) A.x A.W1 A.b1 A.W2 A.b2 A.W3 A.b3 (ix2 r a) = Spec.exh A (⟨7, by decide⟩ : Fin 8) r a := by
  rw [ReadP.val_main_v167_apply, ReadP.val_main_v166_apply, ReadP.val_main_v161_apply, b3s_7,
    ReadP.val_main_call10_v0_apply, ReadP.val_main_call10_cst_apply]
  unfold Spec.exh
  have el : ∀ k : Fin 256, ReadP.lidx_main_v161 (ix2 r a) k = ix2 r k := fun k =>
    pair_l r a k ReadP.lidx_main_v161 (fun _ _ => rfl) (fun _ _ => rfl)
  have er : ∀ k : Fin 256, ReadP.ridx_main_v161 (ix2 r a) k = ix2 k a := fun k =>
    pair_r r a k ReadP.ridx_main_v161 (fun _ _ => rfl) (fun _ _ => rfl)
  simp only [el, er, enc_eq, W3s_7]
  rfl

/-- Expert 7's output. -/
theorem exy_eq_7 (A : Spec.Args) (r : Fin 16384) (j : Fin 512) :
    ReadP.val_main_v175 (F := Ideal) A.x A.W1 A.b1 A.W2 A.b2 A.W3 A.b3 A.W4 A.b4 (ix2 r j) = Spec.exy A (⟨7, by decide⟩ : Fin 8) r j := by
  rw [ReadP.val_main_v175_apply, ReadP.val_main_v170_apply, b4s_7]
  unfold Spec.exy
  have el : ∀ k : Fin 1024, ReadP.lidx_main_v170 (ix2 r j) k = ix2 r k := fun k =>
    pair_l r j k ReadP.lidx_main_v170 (fun _ _ => rfl) (fun _ _ => rfl)
  have er : ∀ k : Fin 1024, ReadP.ridx_main_v170 (ix2 r j) k = ix2 k j := fun k =>
    pair_r r j k ReadP.ridx_main_v170 (fun _ _ => rfl) (fun _ _ => rfl)
  simp only [el, er, exh_eq_7, W4s_7]
  rfl

/-- Expert 7's gated contribution to the result. -/
theorem term_eq_7 (A : Spec.Args) (r : Fin 16384) (j : Fin 512) :
    ReadP.val_main_v178 (F := Ideal) A.x A.ids A.W1 A.b1 A.W2 A.b2 A.W3 A.b3 A.W4 A.b4 (ix2 r j) = Spec.term A r j 7 := by
  rw [ReadP.val_main_v178_apply, exy_eq_7, gs_7, gate_eq, Spec.term_lt A r j 7 (by decide)]
  rfl

end Cert.RefSpec

end
-- ==== Proof.RefIsSpec.lean ====
/-
  The reference program's result is the specification function.

  The program adds the eight gated expert outputs onto the zero array one after the other; after expert e the running
  array is the specification's partial sum acc · · (e+1), and the last one is the result.
-/
import proofs.«167038_j19533511262661_1_alg».proof.Proof.RefExpertsA
import proofs.«167038_j19533511262661_1_alg».proof.Proof.RefExpertsB
import proofs.«167038_j19533511262661_1_alg».proof.Proof.RefExpertsC
import proofs.«167038_j19533511262661_1_alg».proof.Proof.RefExpertsD

noncomputable section

namespace Cert.RefSpec

open Cert.ReferenceIdeal Idealize.ShloMosaic Idealize.ShloMosaic.ValueIdx

/-- The running sum after expert 0: zero plus expert 0's contribution. -/
theorem acc_eq_0 (A : Spec.Args) (r : Fin 16384) (j : Fin 512) :
    ReadP.val_main_v32 (F := Ideal) A.x A.ids A.W1 A.b1 A.W2 A.b2 A.W3 A.b3 A.W4 A.b4 (ix2 r j) = Spec.acc A r j 1 := by
  rw [ReadP.val_main_v32_apply, ReadP.val_main_v11_apply, ReadP.val_main_cst_apply, term_eq_0]
  exact (Spec.acc_succ A r j 0).symm

/-- The running sum after expert 1. -/
theorem acc_eq_1 (A : Spec.Args) (r : Fin 16384) (j : Fin 512) :
    ReadP.val_main_v53 (F := Ideal) A.x A.ids A.W1 A.b1 A.W2 A.b2 A.W3 A.b3 A.W4 A.b4 (ix2 r j) = Spec.acc A r j 2 := by
  rw [ReadP.val_main_v53_apply, acc_eq_0, term_eq_1]
  exact (Spec.acc_succ A r j 1).symm

/-- The running sum after expert 2. -/
theorem acc_eq_2 (A : Spec.Args) (r : Fin 16384) (j : Fin 512) :
    ReadP.val_main_v74 (F := Ideal) A.x A.ids A.W1 A.b1 A.W2 A.b2 A.W3 A.b3 A.W4 A.b4 (ix2 r j) = Spec.acc A r j 3 := by
  rw [ReadP.val_main_v74_apply, acc_eq_1, term_eq_2]
  exact (Spec.acc_succ A r j 2).symm

/-- The running sum after expert 3. -/
theorem acc_eq_3 (A : Spec.Args) (r : Fin 16384) (j : Fin 512) :
    ReadP.val_main_v95 (F := Ideal) A.x A.ids A.W1 A.b1 A.W2 A.b2 A.W3 A.b3 A.W4 A.b4 (ix2 r j) = Spec.acc A r j 4 := by
  rw [ReadP.val_main_v95_apply, acc_eq_2, term_eq_3]
  exact (Spec.acc_succ A r j 3).symm

/-- The running sum after expert 4. -/
theorem acc_eq_4 (A : Spec.Args) (r : Fin 16384) (j : Fin 512) :
    ReadP.val_main_v116 (F := Ideal) A.x A.ids A.W1 A.b1 A.W2 A.b2 A.W3 A.b3 A.W4 A.b4 (ix2 r j) = Spec.acc A r j 5 := by
  rw [ReadP.val_main_v116_apply, acc_eq_3, term_eq_4]
  exact (Spec.acc_succ A r j 4).symm

/-- The running sum after expert 5. -/
theorem acc_eq_5 (A : Spec.Args) (r : Fin 16384) (j : Fin 512) :
    ReadP.val_main_v137 (F := Ideal) A.x A.ids A.W1 A.b1 A.W2 A.b2 A.W3 A.b3 A.W4 A.b4 (ix2 r j) = Spec.acc A r j 6 := by
  rw [ReadP.val_main_v137_apply, acc_eq_4, term_eq_5]
  exact (Spec.acc_succ A r j 5).symm

/-- The running sum after expert 6. -/
theorem acc_eq_6 (A : Spec.Args) (r : Fin 16384) (j : Fin 512) :
    ReadP.val_main_v158 (F := Ideal) A.x A.ids A.W1 A.b1 A.W2 A.b2 A.W3 A.b3 A.W4 A.b4 (ix2 r j) = Spec.acc A r j 7 := by
  rw [ReadP.val_main_v158_apply, acc_eq_5, term_eq_6]
  exact (Spec.acc_succ A r j 6).symm

/-- The running sum after expert 7. -/
theorem acc_eq_7 (A : Spec.Args) (r : Fin 16384) (j : Fin 512) :
    ReadP.val_main_v179 (F := Ideal) A.x A.ids A.W1 A.b1 A.W2 A.b2 A.W3 A.b3 A.W4 A.b4 (ix2 r j) = Spec.acc A r j 8 := by
  rw [ReadP.val_main_v179_apply, acc_eq_6, term_eq_7]
  exact (Spec.acc_succ A r j 7).symm

/-- The reference program computes the specification function of its ten arguments. -/
theorem ref_eq (x0 : (⟨S16384x512, .f32⟩ : BufTy).Contents (Elt Ideal)) (x1 : (⟨S16384, .i32⟩ : BufTy).Contents (Elt Ideal))
    (x2 : (⟨S512x1024, .f32⟩ : BufTy).Contents (Elt Ideal)) (x3 : (⟨S1024, .f32⟩ : BufTy).Contents (Elt Ideal))
    (x4 : (⟨S1024x256, .f32⟩ : BufTy).Contents (Elt Ideal)) (x5 : (⟨S256, .f32⟩ : BufTy).Contents (Elt Ideal))
    (x6 : (⟨S8x256x1024, .f32⟩ : BufTy).Contents (Elt Ideal)) (x7 : (⟨S8x1024, .f32⟩ : BufTy).Contents (Elt Ideal))
    (x8 : (⟨S8x1024x512, .f32⟩ : BufTy).Contents (Elt Ideal)) (x9 : (⟨S8x512, .f32⟩ : BufTy).Contents (Elt Ideal)) :
    Cert.ReferenceIdeal.ReadP.val_main_v179 (F := Ideal) x0 x1 x2 x3 x4 x5 x6 x7 x8 x9
      = Cert.Spec.out ⟨x0, x1, x2, x3, x4, x5, x6, x7, x8, x9⟩ := by
  funext i
  refine Eq.trans ?_ (acc_eq_7 ⟨x0, x1, x2, x3, x4, x5, x6, x7, x8, x9⟩ (i 0) (i 1))
  exact congrArg (ReadP.val_main_v179 (F := Ideal) x0 x1 x2 x3 x4 x5 x6 x7 x8 x9) (eq_ix2 i)

end Cert.RefSpec

end
-- ==== Proof.lean ====
/-
  The proof of `Cert.Claim`: the three frames, the (empty) idealization ledger, and the equality of the idealized kernel
  and the idealized reference on the extended reals.

  Both programs compute, for every row r and column j, the same expression tree: the two clamped trunk layers, then for
  the experts e = 0 … 7 in order the expert's two layers on the encoding of row r, times the routing bit [ids r = e],
  added onto a sum that starts at zero (`Cert.Spec.out`). The kernel reaches it by a grid of 16 row tiles × 8 experts
  with the encoding and the running sum carried in two scratch buffers across the expert steps (Proof/KFinal.lean); the
  reference by 182 host operations with the eight experts unrolled (Proof/RefIsSpec.lean). No algebraic law is needed
  between the two sides (not even associativity: the order of the eight additions is the same), so the precondition
  is never opened.
-/
import proofs.«167038_j19533511262661_1_alg».proof.Defs
import proofs.«167038_j19533511262661_1_alg».proof.Proof.Gen.Kernel
import proofs.«167038_j19533511262661_1_alg».proof.Proof.Gen.Kernel.Skeleton
import proofs.«167038_j19533511262661_1_alg».proof.Proof.Gen.Kernel.Launch
import proofs.«167038_j19533511262661_1_alg».proof.Proof.Gen.Kernel.Points
import proofs.«167038_j19533511262661_1_alg».proof.Proof.Gen.Kernel.Frame
import proofs.«167038_j19533511262661_1_alg».proof.Proof.Gen.KernelIdeal
import proofs.«167038_j19533511262661_1_alg».proof.Proof.Gen.KernelIdeal.Skeleton
import proofs.«167038_j19533511262661_1_alg».proof.Proof.Gen.KernelIdeal.Launch
import proofs.«167038_j19533511262661_1_alg».proof.Proof.Gen.KernelIdeal.Points
import proofs.«167038_j19533511262661_1_alg».proof.Proof.Gen.KernelIdeal.Frame
import proofs.«167038_j19533511262661_1_alg».proof.Proof.Gen.KernelIdeal.Value
import proofs.«167038_j19533511262661_1_alg».proof.Proof.Gen.ReferenceIdeal
import proofs.«167038_j19533511262661_1_alg».proof.Proof.RefRunP
import proofs.«167038_j19533511262661_1_alg».proof.Proof.RefReadP
import proofs.«167038_j19533511262661_1_alg».proof.Proof.Spec
import proofs.«167038_j19533511262661_1_alg».proof.Proof.KFinal
import proofs.«167038_j19533511262661_1_alg».proof.Proof.RefIsSpec
import proofs.«167038_j19533511262661_1_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- The idealized kernel runs and leaves its arguments alone: the generated frame. -/
theorem frame_ki : Cert.frame_KernelIdeal := fun m ρ _ => Cert.KernelIdeal.Gen.frame m ρ

/-- The idealized reference runs and leaves its arguments alone: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end with the result array at the specification's function of arguments that agree. -/
theorem algebraic : Cert.algebraic_KernelIdeal_ReferenceIdeal := by
  intro m ρ m' ρ' _ hagree
  refine ⟨fun c => Cert.Spec.out (Cert.KernelIdeal.KBlocks.argsOf m c), Cert.KernelIdeal.KFinal.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v179_eq, Cert.RefSpec.ref_eq]
  obtain ⟨h0, h1, h2, h3, h4, h5, h6, h7, h8, h9⟩ := hagree c
  unfold Cert.KernelIdeal.KBlocks.argsOf
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
